-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S2048x1024 : Shape := ⟨2, ![2048, 1024]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S512x2048 .f32) (main_arg1 : FVec F S2048x1024 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S512x2048 : Shape := ⟨2, ![512, 2048]⟩
abbrev S2048x1024 : Shape := ⟨2, ![2048, 1024]⟩
abbrev S2048x64x16 : Shape := ⟨3, ![2048, 64, 16]⟩
abbrev S2048x16x64 : Shape := ⟨3, ![2048, 16, 64]⟩
abbrev S512x1024 : Shape := ⟨2, ![512, 1024]⟩
abbrev S128x512 : Shape := ⟨2, ![128, 512]⟩
abbrev S128x1024 : Shape := ⟨2, ![128, 1024]⟩
abbrev S512x16x64 : Shape := ⟨3, ![512, 16, 64]⟩
abbrev S512x64 : Shape := ⟨2, ![512, 64]⟩
abbrev S128x16x64 : Shape := ⟨3, ![128, 16, 64]⟩
abbrev S8x16x64 : Shape := ⟨3, ![8, 16, 64]⟩
abbrev S128x64 : Shape := ⟨2, ![128, 64]⟩
abbrev S1x16x64 : Shape := ⟨3, ![1, 16, 64]⟩
abbrev S16x64 : Shape := ⟨2, ![16, 64]⟩
abbrev S512x2112 : Shape := ⟨2, ![512, 2112]⟩

abbrev nBuf : Space → Nat
  | .hbm => 9
  | .vmem => 13
  | .smem => 0
  | _ => 0

abbrev bufTy : (tb : Table) → Fin (tcTables nBuf tb) → BufTy
  | .hbm, ⟨0, _⟩ => ⟨S512x2048, .f32⟩
  | .hbm, ⟨1, _⟩ => ⟨S2048x1024, .f32⟩
  | .hbm, ⟨2, _⟩ => ⟨S2048x64x16, .f32⟩
  | .hbm, ⟨3, _⟩ => ⟨S2048x16x64, .f32⟩
  | .hbm, ⟨4, _⟩ => ⟨S2048x1024, .f32⟩
  | .hbm, ⟨5, _⟩ => ⟨S512x1024, .f32⟩
  | .hbm, ⟨6, _⟩ => ⟨S512x16x64, .f32⟩
  | .hbm, ⟨7, _⟩ => ⟨S512x64, .f32⟩
  | .hbm, ⟨8, _⟩ => ⟨S512x2112, .f32⟩
  | .local _ .vmem, ⟨0, _⟩ => ⟨S128x512, .f32⟩
  | .local _ .vmem, ⟨1, _⟩ => ⟨S128x512, .f32⟩
  | .local _ .vmem, ⟨2, _⟩ => ⟨S512x1024, .f32⟩
  | .local _ .vmem, ⟨3, _⟩ => ⟨S512x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x16x64, .f32⟩
  | .local _ .vmem, ⟨8, _⟩ => ⟨S128x16x64, .f32⟩
  | .local _ .vmem, ⟨9, _⟩ => ⟨S8x16x64, .f32⟩
  | .local _ .vmem, ⟨10, _⟩ => ⟨S8x16x64, .f32⟩
  | .local _ .vmem, ⟨11, _⟩ => ⟨S128x64, .f32⟩
  | .local _ .vmem, ⟨12, _⟩ => ⟨S128x64, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 64], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x16x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S2048x1024_S2048x64x16 : S2048x1024.ShapeCasts S2048x64x16
  transposes_S2048x64x16_S2048x16x64_0_2_1 : S2048x64x16.Transposes [0, 2, 1] S2048x16x64
  shapeCasts_S2048x16x64_S2048x1024 : S2048x16x64.ShapeCasts S2048x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S512x1024_S512x16x64 : S512x1024.ShapeCasts S512x16x64
  inb_S128x64_S128x64_0_0 : ∀ a, (![0, 0] : Fin 2 → Nat) a + S128x64.size a ≤ S128x64.size a
  h_S128x64 : 0 < S128x64.numel
  inb_S128x16x64_S128x16x64_0_0_0 : ∀ a, (![0, 0, 0] : Fin 3 → Nat) a + S128x16x64.size a ≤ S128x16x64.size a
  h_S128x16x64 : 0 < S128x16x64.numel
  shapeCasts_S128x16x64_S128x16x64 : S128x16x64.ShapeCasts S128x16x64
  inb_S8x16x64_S1x16x64_0_0_0 : ∀ a, (![0, 0, 0] : Fin 3 → Nat) a + S1x16x64.size a ≤ S8x16x64.size a
  h_S1x16x64 : 0 < S1x16x64.numel
  shapeCasts_S1x16x64_S16x64 : S1x16x64.ShapeCasts S16x64
  shapeCasts_S16x64_S1x16x64 : S16x64.ShapeCasts S1x16x64
  broadcasts_S1x16x64_S128x16x64 : S1x16x64.Broadcasts S128x16x64
  reduces_S128x16x64_S128x64 : S128x16x64.Reduces [1] S128x64
  inb_S8x16x64_S1x16x64_1_0_0 : ∀ a, (![1, 0, 0] : Fin 3 → Nat) a + S1x16x64.size a ≤ S8x16x64.size a
  inb_S8x16x64_S1x16x64_2_0_0 : ∀ a, (![2, 0, 0] : Fin 3 → Nat) a + S1x16x64.size a ≤ S8x16x64.size a
  inb_S8x16x64_S1x16x64_3_0_0 : ∀ a, (![3, 0, 0] : Fin 3 → Nat) a + S1x16x64.size a ≤ S8x16x64.size a
  inb_S8x16x64_S1x16x64_4_0_0 : ∀ a, (![4, 0, 0] : Fin 3 → Nat) a + S1x16x64.size a ≤ S8x16x64.size a
  inb_S8x16x64_S1x16x64_5_0_0 : ∀ a, (![5, 0, 0] : Fin 3 → Nat) a + S1x16x64.size a ≤ S8x16x64.size a
  inb_S8x16x64_S1x16x64_6_0_0 : ∀ a, (![6, 0, 0] : Fin 3 → Nat) a + S1x16x64.size a ≤ S8x16x64.size a
  inb_S8x16x64_S1x16x64_7_0_0 : ∀ a, (![7, 0, 0] : Fin 3 → Nat) a + S1x16x64.size a ≤ S8x16x64.size a
  shapeCasts_S128x64_S128x64 : S128x64.ShapeCasts S128x64
  concatenates_S512x2048_S512x64_S512x2112_d1 : Shape.Concatenates [S512x2048, S512x64] S512x2112 1
  dot_S128x512_S512x1024_S128x1024_1_0_0_1_n_n_wf : DotDims.WF S128x512 S512x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S512x2048.size a
  hwx0_0 : ∀ i : grid0.Coords, EltTy.bits .f32 = 32 ∨ (Rect.block (s := S512x2048) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x1024.size a
  hwx0_1 : ∀ i : grid0.Coords, EltTy.bits .f32 = 32 ∨ (Rect.block (s := S2048x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S512x1024.size a
  hwx0_2 : ∀ i : grid0.Coords, EltTy.bits .f32 = 32 ∨ (Rect.block (s := S512x1024) S128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16x64.size a ≤ S512x16x64.size a
  hwx1_0 : ∀ i : grid1.Coords, EltTy.bits .f32 = 32 ∨ (Rect.block (s := S512x16x64) S128x16x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x16x64.size a ≤ S512x16x64.size a
  hwx1_1 : ∀ i : grid1.Coords, EltTy.bits .f32 = 32 ∨ (Rect.block (s := S512x16x64) S8x16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S512x64.size a
  hwx1_2 : ∀ i : grid1.Coords, EltTy.bits .f32 = 32 ∨ (Rect.block (s := S512x64) S128x64.size (cc1_transform_2 i) (hinb1_2 i)).WholeWords (EltTy.packing .f32)

variable [Facts₀]

def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v4) S128x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x2048 : Shape := ⟨2, ![512, 2048]⟩
abbrev S2048x1024 : Shape := ⟨2, ![2048, 1024]⟩
abbrev S512x1024 : Shape := ⟨2, ![512, 1024]⟩
abbrev S512x64x16 : Shape := ⟨3, ![512, 64, 16]⟩
abbrev S512x1x64x16 : Shape := ⟨4, ![512, 1, 64, 16]⟩
abbrev S1x512x64x16 : Shape := ⟨4, ![1, 512, 64, 16]⟩
abbrev S512x512x64x16 : Shape := ⟨4, ![512, 512, 64, 16]⟩
abbrev S_ : Shape := ⟨0, ![]⟩
abbrev S512x512x64 : Shape := ⟨3, ![512, 512, 64]⟩
abbrev S512x64 : Shape := ⟨2, ![512, 64]⟩
abbrev S512x2112 : Shape := ⟨2, ![512, 2112]⟩

abbrev nBuf : Space → Nat
  | .hbm => 17
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x1024, .f32⟩
  | .hbm, ⟨2, _⟩ => ⟨S512x1024, .f32⟩
  | .hbm, ⟨3, _⟩ => ⟨S512x64x16, .f32⟩
  | .hbm, ⟨4, _⟩ => ⟨S512x1x64x16, .f32⟩
  | .hbm, ⟨5, _⟩ => ⟨S1x512x64x16, .f32⟩
  | .hbm, ⟨6, _⟩ => ⟨S512x512x64x16, .f32⟩
  | .hbm, ⟨7, _⟩ => ⟨S512x512x64x16, .f32⟩
  | .hbm, ⟨8, _⟩ => ⟨S512x512x64x16, .f32⟩
  | .hbm, ⟨9, _⟩ => ⟨S512x512x64x16, .f32⟩
  | .hbm, ⟨10, _⟩ => ⟨S_, .f32⟩
  | .hbm, ⟨11, _⟩ => ⟨S512x512x64, .f32⟩
  | .hbm, ⟨12, _⟩ => ⟨S512x512x64, .f32⟩
  | .hbm, ⟨13, _⟩ => ⟨S512x512x64, .f32⟩
  | .hbm, ⟨14, _⟩ => ⟨S_, .f32⟩
  | .hbm, ⟨15, _⟩ => ⟨S512x64, .f32⟩
  | .hbm, ⟨16, _⟩ => ⟨S512x2112, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  shapeCasts_S512x1024_S512x64x16 : S512x1024.ShapeCasts S512x64x16
  bcast_S512x64x16_S512x1x64x16_0_2_3 : S512x64x16.BroadcastsInDim S512x1x64x16 (![0, 2, 3] : Fin 3 → Fin S512x1x64x16.rank)
  bcast_S512x64x16_S1x512x64x16_1_2_3 : S512x64x16.BroadcastsInDim S1x512x64x16 (![1, 2, 3] : Fin 3 → Fin S1x512x64x16.rank)
  bcast_S512x1x64x16_S512x512x64x16_0_1_2_3 : S512x1x64x16.BroadcastsInDim S512x512x64x16 (![0, 1, 2, 3] : Fin 4 → Fin S512x512x64x16.rank)
  bcast_S1x512x64x16_S512x512x64x16_0_1_2_3 : S1x512x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  reducesTo_S512x512x64_S512x64_d1 : S512x512x64.ReducesTo [1] S512x64
  concatenates_S512x2048_S512x64_S512x2112_d1 : Shape.Concatenates [S512x2048, S512x64] S512x2112 1
  dot_S512x2048_S2048x1024_S512x1024_1_0_0_1_n_n_wf : DotDims.WF S512x2048 S2048x1024 S512x1024 [1] [0] [0] [1] [] []

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

class Facts : Prop extends Facts₀ where

variable [Facts]
-- ==== Proof.Fr.Base.lean ====
/- Both kernels' branch conditions in closed form over their grids, the points at which the first kernel's
   output block is left untouched, and the staging and scratch memrefs as each body is called with them. -/
import proofs.«171491_j58179626991726_2_alg».proof.Proof.Gen.KernelIdeal.Launch
import proofs.«171491_j58179626991726_2_alg».proof.Proof.Gen.KernelIdeal.Skeleton
import proofs.«171491_j58179626991726_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The matrix-product kernel: grid (row block i, depth block k), 4 × 4 -/

/-- The first depth block: the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The last depth block: the accumulator is copied to the output block. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
/-- Before the last depth block nothing is stored into the output block, and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S128x1024 .f32 := Memref.whole cc0_scratch0
abbrev VS0 : View sig .tc .vmem S128x1024 .f32 := scM0.view
abbrev VO0 : View sig .tc .vmem S128x1024 .f32 := (Memref.whole cc0_stg2_0 : Memref sig .tc .vmem S128x1024 .f32).view

/-! ## The pairwise kernel: grid (row block i, partner block j), 4 × 64 -/

/-- The first partner block: the output block is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 64 = 0 :=
  (by decide +kernel : ∀ t : Fin grid1.N, cond1_0 (grid1.coords t) ↔ t.val % 64 = 0)

abbrev ms1_0 (t : Fin cfg1.N) : Memref sig .tc .vmem S128x16x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x16x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
abbrev VO1 : View sig .tc .vmem S128x64 .f32 := (Memref.whole cc1_stg2_0 : Memref sig .tc .vmem S128x64 .f32).view

/-- The scoped buffers the first region never touches: the second region's staging buffers, each at some contents. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant of the first region: the accumulator as a memref owned at some contents, the scoped buffers
    it never touches, the generator register. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA; rw [scopedRest0_eq]; simp only [scM0, owns_whole]; try rfl

end Cert.KernelIdeal.Fr

end
-- ==== Proof.Fr.Run0.lean ====
/- The matrix-product kernel's body run on whole staging memrefs, once per way its two conditionals can go
   on the grid: at the first depth block (the accumulator reset, then added to), at an inner depth block
   (added to), at the last depth block (added to, then copied to the output block). What each buffer is
   left holding is recorded as the list of stores made into it, last first. -/
import proofs.«171491_j58179626991726_2_alg».proof.Proof.Fr.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- First depth block: the input blocks at `x0`, `x1`, the output block at `xi2` (not touched), the accumulator at anything. -/
noncomputable def kernelRun0_A (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : cond0_0 i) (hc1 : ¬cond0_1 i)
    (x0 : Vec F S128x512 .f32) (x1 : Vec F S512x1024 .f32) :
    { LS0 : List (View.Piece (Elt F) S128x1024 .f32) //
      ∀ (xi2 : Vec F S128x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- Inner depth block: the accumulator at `xs0`, what the point before left. -/
noncomputable def kernelRun0_B (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : ¬cond0_1 i)
    (x0 : Vec F S128x512 .f32) (x1 : Vec F S512x1024 .f32) (xs0 : Vec F S128x1024 .f32) :
    { LS0 : List (View.Piece (Elt F) S128x1024 .f32) //
      ∀ (xi2 : Vec F S128x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- Last depth block: the accumulator at `xs0`, the output block at anything. -/
noncomputable def kernelRun0_C (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : cond0_1 i)
    (x0 : Vec F S128x512 .f32) (x1 : Vec F S512x1024 .f32) (xs0 : Vec F S128x1024 .f32) :
    Σ' (L2 : List (View.Piece (Elt F) S128x1024 .f32)), { LS0 : List (View.Piece (Elt F) S128x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.Fr.Data0.lean ====
/- The proof data of the matrix-product region, at any contents `V` of the core's buffers when the region is
   entered. The accumulator is carried from point to point: after the point (i, k) it holds the sum over the
   depth blocks 0..k of the products of the row block i of the left operand with the depth blocks of the
   right one; the output block is stored at k = 3 only, and is left untouched and not written back before. -/
import proofs.«171491_j58179626991726_2_alg».proof.Proof.Fr.Run0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## What each case leaves in the accumulator and in the output block -/

theorem scover0_A (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : cond0_0 i) (hc1 : ¬cond0_1 i) (x0 : Vec F S128x512 .f32) (x1 : Vec F S512x1024 .f32) (y : S128x1024.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S128x1024.size (by sl_kernel_rfl) y
/-- The accumulator after a first depth block. -/
def sout0_A (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : cond0_0 i) (hc1 : ¬cond0_1 i) (x0 : Vec F S128x512 .f32) (x1 : Vec F S512x1024 .f32) : Vec F S128x1024 .f32 :=
  VS0.read (Elt F) (VS0.writes (Elt F) VS0.junk (kernelRun0_A c i arg2 harg2 arg3 harg3 arg4 harg4 arg5 harg5 hc0 hc1 x0 x1).1)

theorem scover0_B (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : ¬cond0_1 i) (x0 : Vec F S128x512 .f32) (x1 : Vec F S512x1024 .f32) (xs0 : Vec F S128x1024 .f32) (y : S128x1024.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S128x1024.size (by sl_kernel_rfl) y
/-- The accumulator after an inner depth block. -/
def sout0_B (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : ¬cond0_1 i) (x0 : Vec F S128x512 .f32) (x1 : Vec F S512x1024 .f32) (xs0 : Vec F S128x1024 .f32) : Vec F S128x1024 .f32 :=
  VS0.read (Elt F) (VS0.writes (Elt F) VS0.junk (kernelRun0_B c i arg2 harg2 arg3 harg3 arg4 harg4 arg5 harg5 hc0 hc1 x0 x1 xs0).1)

theorem cover0_C (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : cond0_1 i) (x0 : Vec F S128x512 .f32) (x1 : Vec F S512x1024 .f32) (xs0 : Vec F S128x1024 .f32) (y : S128x1024.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S128x1024.size (by sl_kernel_rfl) y
/-- The output block after a last depth block. -/
def out0_C (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : cond0_1 i) (x0 : Vec F S128x512 .f32) (x1 : Vec F S512x1024 .f32) (xs0 : Vec F S128x1024 .f32) : Vec F S128x1024 .f32 :=
  VO0.read (Elt F) (VO0.writes (Elt F) VO0.junk (kernelRun0_C c i arg2 harg2 arg3 harg3 arg4 harg4 arg5 harg5 hc0 hc1 x0 x1 xs0).1)
theorem scover0_C (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : cond0_1 i) (x0 : Vec F S128x512 .f32) (x1 : Vec F S512x1024 .f32) (xs0 : Vec F S128x1024 .f32) (y : S128x1024.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S128x1024.size (by sl_kernel_rfl) y
/-- The accumulator after a last depth block. -/
def sout0_C (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : cond0_1 i) (x0 : Vec F S128x512 .f32) (x1 : Vec F S512x1024 .f32) (xs0 : Vec F S128x1024 .f32) : Vec F S128x1024 .f32 :=
  VS0.read (Elt F) (VS0.writes (Elt F) VS0.junk (kernelRun0_C c i arg2 harg2 arg3 harg3 arg4 harg4 arg5 harg5 hc0 hc1 x0 x1 xs0).2.1)

/-- Contents nothing consults: the output block's entry at a point that stores nothing into it. -/
def junkOut0 : Vec F S128x1024 .f32 := VO0.read (Elt F) VO0.junk

section Region0
variable (V : (c : Dev nD) → (b : Ref sig .tc) → Buf (Elt F) ((c : Thread nD τ).loc b))

/-- What the output block's staging buffer and the accumulator hold after the body at position `n`: the case the point is
    in, run at the point's memrefs and input blocks, the accumulator read at what the point before left. -/
def outsAt0 (c : Dev nD) : (n : ℕ) → n < cfg0.N → Vec F S128x1024 .f32 × Vec F S128x1024 .f32
  | 0, hn => (junkOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (junkOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (junkOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (junkOut0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (junkOut0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards the
    accumulator at what the point before left in it, the untouched scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-- The proof data of the matrix-product region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in; the
    invariant hands the body the accumulator at what the point before left (at anything at the first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · by_cases h1 : t.val % 4 = 3
    · exfalso; omega
    · rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _)
            iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _)
            iexact Hoth
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 16 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  iintro ⟨⟨HS0, Hoth⟩, Hg⟩
  isplitl [HS0 Hoth]
  · isplitl [HS0]
    · iexists _; iexact HS0
    iexact Hoth
  iexact Hg

end Region0

end Cert.KernelIdeal.Fr

end
-- ==== Proof.Fr.Run1.lean ====
/- The pairwise kernel's body run on whole staging memrefs, once per way its one conditional can go on the
   grid: at the first partner block (the output block reset, then added to) and at a later one (added to
   what the point before left). What the output block is left holding is recorded as the list of stores
   made into it, last first. -/
import proofs.«171491_j58179626991726_2_alg».proof.Proof.Fr.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- First partner block: the row block at `x0`, the partner block at `x1`, the output block at anything. -/
noncomputable def kernelRun1_A (c : Dev nD) (i : grid1.Coords) (arg2 : Memref sig .tc .vmem S128x16x64 .f32) (harg2 : arg2.IsWhole) (arg3 : Memref sig .tc .vmem S8x16x64 .f32) (harg3 : arg3.IsWhole) (arg4 : Memref sig .tc .vmem S128x64 .f32) (harg4 : arg4.IsWhole) (hc0 : cond1_0 i)
    (x0 : Vec F S128x16x64 .f32) (x1 : Vec F S8x16x64 .f32) :
    { L2 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__pairwise_kernel i arg2 harg2 arg3 harg3 arg4 harg4) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 2000000 in
/-- A later partner block: the output block at `xo`, what the point before left. -/
noncomputable def kernelRun1_B (c : Dev nD) (i : grid1.Coords) (arg2 : Memref sig .tc .vmem S128x16x64 .f32) (harg2 : arg2.IsWhole) (arg3 : Memref sig .tc .vmem S8x16x64 .f32) (harg3 : arg3.IsWhole) (arg4 : Memref sig .tc .vmem S128x64 .f32) (harg4 : arg4.IsWhole) (hc0 : ¬cond1_0 i)
    (x0 : Vec F S128x16x64 .f32) (x1 : Vec F S8x16x64 .f32) (xo : Vec F S128x64 .f32) :
    { L2 : List (View.Piece (Elt F) S128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__pairwise_kernel i arg2 harg2 arg3 harg3 arg4 harg4) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Fr

end
-- ==== Proof.Fr.Data1.lean ====
/- The proof data of the pairwise region, at any contents `V` of the core's buffers when the region is entered.
   The output block of the row block i is reset at the partner block j = 0 and added to at every later j, so after
   the point (i, j) it holds the sum over the partner blocks 0..j; it is written back at j = 63. The two input
   windows read one array, which they hold at the two halves of the full share. -/
import proofs.«171491_j58179626991726_2_alg».proof.Proof.Fr.Run1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

theorem cover1_A (c : Dev nD) (i : grid1.Coords) (arg2 : Memref sig .tc .vmem S128x16x64 .f32) (harg2 : arg2.IsWhole) (arg3 : Memref sig .tc .vmem S8x16x64 .f32) (harg3 : arg3.IsWhole) (arg4 : Memref sig .tc .vmem S128x64 .f32) (harg4 : arg4.IsWhole) (hc0 : cond1_0 i) (x0 : Vec F S128x16x64 .f32) (x1 : Vec F S8x16x64 .f32) (y : S128x64.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S128x64.size (by sl_kernel_rfl) y
/-- The output block after a first partner block. -/
def out1_A (c : Dev nD) (i : grid1.Coords) (arg2 : Memref sig .tc .vmem S128x16x64 .f32) (harg2 : arg2.IsWhole) (arg3 : Memref sig .tc .vmem S8x16x64 .f32) (harg3 : arg3.IsWhole) (arg4 : Memref sig .tc .vmem S128x64 .f32) (harg4 : arg4.IsWhole) (hc0 : cond1_0 i) (x0 : Vec F S128x16x64 .f32) (x1 : Vec F S8x16x64 .f32) : Vec F S128x64 .f32 :=
  VO1.read (Elt F) (VO1.writes (Elt F) VO1.junk (kernelRun1_A c i arg2 harg2 arg3 harg3 arg4 harg4 hc0 x0 x1).1)

theorem cover1_B (c : Dev nD) (i : grid1.Coords) (arg2 : Memref sig .tc .vmem S128x16x64 .f32) (harg2 : arg2.IsWhole) (arg3 : Memref sig .tc .vmem S8x16x64 .f32) (harg3 : arg3.IsWhole) (arg4 : Memref sig .tc .vmem S128x64 .f32) (harg4 : arg4.IsWhole) (hc0 : ¬cond1_0 i) (x0 : Vec F S128x16x64 .f32) (x1 : Vec F S8x16x64 .f32) (xo : Vec F S128x64 .f32) (y : S128x64.Idx) :
    ∃ pc ∈ (kernelRun1_B c i arg2 harg2 arg3 harg3 arg4 harg4 hc0 x0 x1 xo).1, y ∈ pc.1.set :=
  View.cover_of_tiledL (kernelRun1_B c i arg2 harg2 arg3 harg3 arg4 harg4 hc0 x0 x1 xo).1 S128x64.size (by sl_kernel_rfl) y
/-- The output block after a later partner block, from what the point before left in it. -/
def out1_B (c : Dev nD) (i : grid1.Coords) (arg2 : Memref sig .tc .vmem S128x16x64 .f32) (harg2 : arg2.IsWhole) (arg3 : Memref sig .tc .vmem S8x16x64 .f32) (harg3 : arg3.IsWhole) (arg4 : Memref sig .tc .vmem S128x64 .f32) (harg4 : arg4.IsWhole) (hc0 : ¬cond1_0 i) (x0 : Vec F S128x16x64 .f32) (x1 : Vec F S8x16x64 .f32) (xo : Vec F S128x64 .f32) : Vec F S128x64 .f32 :=
  VO1.read (Elt F) (VO1.writes (Elt F) VO1.junk (kernelRun1_B c i arg2 harg2 arg3 harg3 arg4 harg4 hc0 x0 x1 xo).1)

section Region1
variable (V : (c : Dev nD) → (b : Ref sig .tc) → Buf (Elt F) ((c : Thread nD τ).loc b))

/-- What the output block's staging buffer holds after the body at position `n`. -/
def outsAt1 (c : Dev nD) : (n : ℕ) → n < cfg1.N → Vec F S128x64 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 64 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 64 = 0) :
    outsAt1 V c t.val t.isLt = out1_A c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 64 = 0) :
    outsAt1 V c t.val t.isLt = out1_B c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the pairwise region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a later partner block the output's staging buffer holds what the body left at the point before: the buffer was
    not written back between. -/
theorem before1_2_B (c : Dev nD) (t : Fin cfg1.N) (h0 : ¬t.val % 64 = 0) (d) :
    (dat1 V c).before 2 t d = outsAt1 V c (t.val - 1) (Nat.lt_of_le_of_lt (Nat.sub_le _ _) t.isLt) := by
  have hN : t.val < 256 := lt_of_lt_of_eq t.isLt (show cfg1.N = 256 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 256 := lt_of_lt_of_eq t.isLt (show cfg1.N = 256 from N_1)
  by_cases h0 : t.val % 64 = 0
  · rw [outsAt1_A V c t h0]
    unfold out1_A
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A c _ _ _ _ _ _ _ _ _ _)
  · rw [outsAt1_B V c t h0]
    simp only [before1_2_B V c t h0]
    unfold out1_B
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.Fr.Run.lean ====
/- The run of the whole program: the host operations before, between and after the two regions as segments over the
   contents of every unscoped buffer, each region as a segment whose arrays are split out of those buffers at its
   entry and put back at its exit at what its write-backs leave; at the end every unscoped buffer holds the last
   boundary's contents. -/
import proofs.«171491_j58179626991726_2_alg».proof.Proof.Fr.Data0
import proofs.«171491_j58179626991726_2_alg».proof.Proof.Fr.Data1
import proofs.«171491_j58179626991726_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 (c : Dev nD) : Valuation τ sig (Elt F) := fun b => m (c, b)
/-- After the host operations that permute the right operand's columns. -/
abbrev W1 (c : Dev nD) : Valuation τ sig (Elt F) := StableHlo.after hostOps0 (W0 m c)
abbrev U1 : (c : Dev nD) → (b : Ref sig .tc) → Buf (Elt F) ((c : Thread nD τ).loc b) := fun c b => W1 m c b
/-- What the matrix-product region leaves in its result array. -/
def X3 (c : Dev nD) : Buf (Elt F) ((c : Thread nD τ).loc main_v3) := (dat0 (U1 m) c).arrAt 2 cfg0.N
/-- After the matrix-product region. -/
def W2 (c : Dev nD) : Valuation τ sig (Elt F) := Function.update (W1 m c) main_v3 (X3 m c)
abbrev U2 : (c : Dev nD) → (b : Ref sig .tc) → Buf (Elt F) ((c : Thread nD τ).loc b) := fun c b => W2 m c b
/-- After the reshape of the product to (row, kernel coordinate, feature). -/
abbrev W3 (c : Dev nD) : Valuation τ sig (Elt F) := StableHlo.after hostOps1 (W2 m c)
abbrev U3 : (c : Dev nD) → (b : Ref sig .tc) → Buf (Elt F) ((c : Thread nD τ).loc b) := fun c b => W3 m c b
/-- What the pairwise region leaves in its result array. -/
def X5 (c : Dev nD) : Buf (Elt F) ((c : Thread nD τ).loc main_v5) := (dat1 (U3 m) c).arrAt 2 cfg1.N
/-- After the pairwise region. -/
def W4 (c : Dev nD) : Valuation τ sig (Elt F) := Function.update (W3 m c) main_v5 (X5 m c)
abbrev U4 : (c : Dev nD) → (b : Ref sig .tc) → Buf (Elt F) ((c : Thread nD τ).loc b) := fun c b => W4 m c b
/-- After the concatenation. -/
abbrev W5 (c : Dev nD) : Valuation τ sig (Elt F) := StableHlo.after hostOps2 (W4 m c)

theorem W2_self (c : Dev nD) : W2 m c (Proc.devRef .tc main_v3) = X3 m c := Function.update_self ..
theorem W2_of_ne (c : Dev nD) (b : Ref sig .tc) (h : b ≠ main_v3) : W2 m c (Proc.devRef .tc b) = W1 m c (Proc.devRef .tc b) :=
  Function.update_of_ne (StableHlo.devRef_ne_of_ne h) ..
theorem W4_self (c : Dev nD) : W4 m c (Proc.devRef .tc main_v5) = X5 m c := Function.update_self ..
theorem W4_of_ne (c : Dev nD) (b : Ref sig .tc) (h : b ≠ main_v5) : W4 m c (Proc.devRef .tc b) = W3 m c (Proc.devRef .tc b) :=
  Function.update_of_ne (StableHlo.devRef_ne_of_ne h) ..

/-! ## The proof data family and the thread state -/

abbrev adm' : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The matrix-product region as a segment -/

theorem hF0 (c : Dev nD) (w : Fin cfg0.W) : (pdats m 0 c).arrAt w cfg0.N = U2 m c (Pipeline.arrRef spec0 w) := by
  match w with
  | ⟨0, _⟩ => exact ((dat0 (U1 m) c).arrAt_in 0 rfl _).trans ((A_eq0 (U1 m) c 0).trans (W2_of_ne m c main_arg0 (by decide)).symm)
  | ⟨1, _⟩ => exact ((dat0 (U1 m) c).arrAt_in 1 rfl _).trans ((A_eq0 (U1 m) c 1).trans (W2_of_ne m c main_v2 (by decide)).symm)
  | ⟨2, _⟩ => exact (W2_self m c).symm
theorem hrest0 (c : Dev nD) : ∀ b, b ∉ Finset.univ.image (Pipeline.arrRef spec0) → U2 m c b = U1 m c b :=
  fun b hb => W2_of_ne m c b fun e => hb (Finset.mem_image.mpr ⟨2, Finset.mem_univ _, e.symm⟩)

set_option backward.isDefEq.respectTransparency.types false in
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The pairwise region as a segment: its two input windows share the reshaped product -/

/-- The buffers behind the pairwise region's arrays: the reshaped product and the result. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v5) ↦{fullShare} V main_v5)) := by
  unfold Pipeline.arrBufs
  exact bigSep_eq_bigSepL_of_eq [main_v4, main_v5] (by decide) (by decide) _

/-- The pairwise region's arrays as it holds them: the reshaped product at the two halves of the full share, one per
    input window, and the result outright. -/
theorem arrays1_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 V c).arrays Fa : sProp 𝕄)
      = iprop((((c : Thread nD τ).loc main_v4) ↦{fullShare.left} Fa 0) ∗ (((c : Thread nD τ).loc main_v4) ↦{fullShare.right} Fa 1)
          ∗ (((c : Thread nD τ).loc main_v5) ↦{fullShare} Fa 2)) := by
  unfold Pipeline.Dat.arrays
  rw [bigSep_W1, (arr_whole1 0).set_eq_univ, (arr_whole1 2).set_eq_univ]
  rfl

theorem held_split1 (c : Dev nD) (W : Valuation τ sig (Elt F)) :
    (StableHlo.held (c : Thread nD τ) (Pipeline.ucRefs τ sig) W : sProp 𝕄)
      = iprop(((((c : Thread nD τ).loc main_v4) ↦{fullShare} W main_v4) ∗ (((c : Thread nD τ).loc main_v5) ↦{fullShare} W main_v5))
          ∗ Pipeline.unscopedRest (Ix := Unit) (Name := ℕ) (U := UR sig nD τ) (Lvl := ℕ) spec1 c (fun b => W b)) := by
  rw [← Pipeline.unscopedBufs_held, Pipeline.unscopedBufs_split₀ cfgs 1 winFacts₀1.arr_unscoped c (fun b => W b)]
  rw [show (Pipeline.arrBufs (Ix := Unit) (Name := ℕ) (U := UR sig nD τ) (Lvl := ℕ) (cfgs 1).spec c (fun b : Ref sig .tc => W b) : sProp 𝕄) = Pipeline.arrBufs spec1 c (fun b => W b) from rfl, arrBufs1_eq]
  rfl

/-- A whole buffer held outright is held at the two halves of the full share, and back. -/
theorem share_halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

theorem rest1_congr (c : Dev nD) :
    (Pipeline.unscopedRest (Ix := Unit) (Name := ℕ) (U := UR sig nD τ) (Lvl := ℕ) spec1 c (U4 m c) : sProp 𝕄)
      = Pipeline.unscopedRest spec1 c (U3 m c) := by
  unfold Pipeline.unscopedRest
  exact bigSep_congr fun b hb => by
    rw [show U4 m c b = U3 m c b from W4_of_ne m c b fun e => (Finset.mem_sdiff.mp hb).2 (Finset.mem_image.mpr ⟨2, Finset.mem_univ _, e.symm⟩)]

set_option backward.isDefEq.respectTransparency.types false in
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none, held_split1,
      show ((pdats m 1 c).arrays ((pdats m 1 c).arrAt · 0) : sProp 𝕄) = (dat1 (U3 m) c).arrays ((dat1 (U3 m) c).arrAt · 0) from rfl, arrays1_eq]
    iintro ⟨⟨⟨⟨H4, H5⟩, Hrest⟩, Hp, HO⟩, -, -⟩
    ihave H4' := (share_halves (F := F) (ℓ := (c : Thread nD τ).loc main_v4) (U3 m c main_v4)).1 $$ H4
    icases H4' with ⟨H4l, H4r⟩
    imodintro
    isplitl [H4l H4r H5]
    · isplitl [H4l]; · iexact H4l
      isplitl [H4r]; · iexact H4r
      iexact H5
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [held_split1, show (fun b : Ref sig .tc => W4 m c b) = U4 m c from rfl, rest1_congr,
      show ((pdats m 1 c).arrays (fun x => (pdats m 1 c).arrAt x (Pipeline.pin (pcfgs (F := F)) adm' 1).N) : sProp 𝕄) = (dat1 (U3 m) c).arrays (fun x => (dat1 (U3 m) c).arrAt x cfg1.N) from rfl, arrays1_eq,
      (dat1 (U3 m) c).arrAt_in 0 rfl cfg1.N, (dat1 (U3 m) c).arrAt_in 1 rfl cfg1.N, W4_self, W4_of_ne m c main_v4 (by decide)]
    iintro ⟨⟨H4l, H4r, H5⟩, HO, HY, Hrest⟩
    imodintro
    isplitl [H4l H4r H5 Hrest]
    · isplitl [H4l H4r H5]
      · isplitl [H4l H4r]
        · iapply (share_halves (F := F) (ℓ := (c : Thread nD τ).loc main_v4) (U3 m c main_v4)).2
          isplitl [H4l]; · iexact H4l
          iexact H4r
        iexact H5
      iexact Hrest
    isplitl [HY]; · iexact HY
    unfold Pipeline.Dat.owesAt Pipeline.owesWithin
    icases HO with ⟨%W, -, HO⟩; iexists W; iexact HO

/-! ## @main as segments, and the launch -/

theorem hostOps0_fresh' : (hostOps0 : List (HloOp τ sig (Elt F))).Forall fun op => op.fresh = ∅ := hostOps0_fresh
abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and in
    every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := by
      refine ⟨fun _ => .rfl, fun _ => .rfl, fun _ => .rfl, fun _ => .rfl, fun _ => .rfl, fun c => ?_⟩
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- No host operation and no region writes an argument: the last boundary holds each as launched. -/
theorem W5_arg0 (c : Dev nD) : W5 m c (Proc.devRef .tc main_arg0) = m ((c : Thread nD τ).loc main_arg0) :=
  (StableHlo.after_of_writes_sub hostOps2 _ hostOps2_writes (by decide)).trans <| (W4_of_ne m c main_arg0 (by decide)).trans <|
    (StableHlo.after_of_writes_sub hostOps1 _ hostOps1_writes (by decide)).trans <| (W2_of_ne m c main_arg0 (by decide)).trans <|
    (StableHlo.after_of_writes_sub hostOps0 _ hostOps0_writes (by decide)).trans rfl
theorem W5_arg1 (c : Dev nD) : W5 m c (Proc.devRef .tc main_arg1) = m ((c : Thread nD τ).loc main_arg1) :=
  (StableHlo.after_of_writes_sub hostOps2 _ hostOps2_writes (by decide)).trans <| (W4_of_ne m c main_arg1 (by decide)).trans <|
    (StableHlo.after_of_writes_sub hostOps1 _ hostOps1_writes (by decide)).trans <| (W2_of_ne m c main_arg1 (by decide)).trans <|
    (StableHlo.after_of_writes_sub hostOps0 _ hostOps0_writes (by decide)).trans rfl

/-- The run with the result buffer named: it ends holding the last boundary's contents, the arguments as launched. -/
theorem run_value : θ_run defs (onTc (τ := τ) (main (F := F))) ⟨m, fun _ => 0, ρ⟩ (fun r => ∀ c : Dev nD,
      r.2.mem ((c.tc : Thread nD τ).loc main_v6) = W5 m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c _ (mem_uc main_v6 (by decide)),
    (h c _ (mem_uc main_arg0 (by decide))).trans (W5_arg0 m c), (h c _ (mem_uc main_arg1 (by decide))).trans (W5_arg1 m c)⟩) (run_main m ρ)

/-- The frame: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_value m ρ)

end Cert.KernelIdeal.Fr

end
-- ==== Proof.Val.Spec.lean ====
/- The two arrays the kernels compute, as functions of the arrays they are given, entry by entry on the extended reals:
   the matrix product of a [512, 2048] array with a [2048, 1024] one, and, for a [512, 16, 64] array M (row, kernel
   coordinate, feature), the array out(b, o) = Σ over rows b2 of exp(0 − Σ over k of |M(b, k, o) − M(b2, k, o)|). -/
import proofs.«171491_j58179626991726_2_alg».proof.KernelIdeal
import Idealize.ShloMosaic.Lib.ValueIdx
import Idealize.ShloMosaic.PureOps.Ideal

noncomputable section

namespace Cert.KernelIdeal.Val

open Idealize.ShloMosaic Idealize.ShloMosaic.ValueIdx Cert.KernelIdeal

/-- The absolute value of an extended real, as the float operation reads it. -/
def eabs (x : EReal) : EReal := max x (-x)

/-- The product's entry (b, n): the sum over the depth d of A(b, d) · B(d, n). -/
def prodAt (A : S512x2048.Idx → EReal) (B : S2048x1024.Idx → EReal) (b : Fin 512) (n : Fin 1024) : EReal :=
  ∑ d : Fin 2048, A (ix2 b d) * B (ix2 d n)

/-- The matrix product, as an array. -/
def prodArr (A : S512x2048.Idx → EReal) (B : S2048x1024.Idx → EReal) : S512x1024.Idx → EReal :=
  fun i => prodAt A B ⟨(i 0).val, (i 0).isLt⟩ ⟨(i 1).val, (i 1).isLt⟩

/-- The L1 distance over the kernel coordinate between rows b and b2 of M at feature o. -/
def distAt (M : S512x16x64.Idx → EReal) (b b2 : Fin 512) (o : Fin 64) : EReal :=
  ∑ k : Fin 16, eabs (M (ix3 b k o) - M (ix3 b2 k o))

/-- The entry (b, o): the sum over the rows b2 of exp(0 − distance). -/
def pairAt (M : S512x16x64.Idx → EReal) (b : Fin 512) (o : Fin 64) : EReal :=
  ∑ b2 : Fin 512, Ideal.exp (0 - distAt M b b2 o)

/-- The pairwise array. -/
def pairArr (M : S512x16x64.Idx → EReal) : S512x64.Idx → EReal :=
  fun i => pairAt M ⟨(i 0).val, (i 0).isLt⟩ ⟨(i 1).val, (i 1).isLt⟩

end Cert.KernelIdeal.Val

end
-- ==== Proof.Val.Host.lean ====
/- The host operations around the two regions, read at an index at the extended reals: the right operand with its columns
   permuted from (feature, kernel coordinate) order to (kernel coordinate, feature) order, the product viewed as
   (row, kernel coordinate, feature), and the final concatenation. -/
import proofs.«171491_j58179626991726_2_alg».proof.Proof.Fr.Run
import proofs.«171491_j58179626991726_2_alg».proof.Proof.Val.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (m : (ℓ : Loc nD τ sig) → Buf (Elt Ideal) ℓ)

/-- The left operand x and the right operand T as launched. -/
abbrev argX (c : Dev nD) : S512x2048.Idx → EReal := m ((c : Thread nD τ).loc main_arg0)
abbrev argT (c : Dev nD) : S2048x1024.Idx → EReal := m ((c : Thread nD τ).loc main_arg1)

/-- The right operand with permuted columns: T viewed as (depth, feature, kernel coordinate), its last two axes exchanged,
    flattened again. -/
def permT (T : S2048x1024.Idx → EReal) : S2048x1024.Idx → EReal :=
  shapeCast S2048x1024 (transpose S2048x16x64 [0, 2, 1] (shapeCast S2048x64x16 T shapeCasts_S2048x1024_S2048x64x16) transposes_S2048x64x16_S2048x16x64_0_2_1) shapeCasts_S2048x16x64_S2048x1024

/-- Column k·64 + o of the permuted operand is column o·16 + k of T. -/
theorem permT_apply (T : S2048x1024.Idx → EReal) (d : Fin 2048) (k : Fin 16) (o : Fin 64) :
    permT T (ix2 d ⟨k.val * 64 + o.val, by omega⟩) = T (ix2 d ⟨o.val * 16 + k.val, by omega⟩) := by
  unfold permT
  rw [shapeCast_apply _ shapeCasts_S2048x16x64_S2048x1024 (ix2 d ⟨k.val * 64 + o.val, by omega⟩) (ix3 d k o)
    (by rw [Shape.rowMajor_val_three, Shape.rowMajor_val_two]; show (d.val * 16 + k.val) * 64 + o.val = d.val * 1024 + (k.val * 64 + o.val); omega)]
  rw [transpose_apply [0, 2, 1] _ transposes_S2048x64x16_S2048x16x64_0_2_1 (ix3 d k o) (ix3 d o k)
    (fun b => by match b with | ⟨0, _⟩ => rfl | ⟨1, _⟩ => rfl | ⟨2, _⟩ => rfl)]
  exact shapeCast_apply _ shapeCasts_S2048x1024_S2048x64x16 (ix3 d o k) (ix2 d ⟨o.val * 16 + k.val, by omega⟩)
    (by rw [Shape.rowMajor_val_three, Shape.rowMajor_val_two]; show d.val * 1024 + (o.val * 16 + k.val) = (d.val * 64 + o.val) * 16 + k.val; omega)

/-- When the matrix-product region is entered its left operand is x and its right operand the permuted T. -/
theorem U1_arg0 (c : Dev nD) : U1 m c main_arg0 = argX m c := by
  show StableHlo.after hostOps0 (W0 m c) (Proc.devRef .tc main_arg0) = _
  after_results <;> rfl
theorem U1_v2 (c : Dev nD) : U1 m c main_v2 = permT (argT m c) := by
  show StableHlo.after hostOps0 (W0 m c) (Proc.devRef .tc main_v2) = _
  after_results <;> rfl

/-- When the pairwise region is entered its operand is the product viewed as (row, kernel coordinate, feature). -/
theorem U3_v4 (c : Dev nD) : U3 m c main_v4 = shapeCast S512x16x64 (X3 m c) shapeCasts_S512x1024_S512x16x64 := by
  show StableHlo.after hostOps1 (W2 m c) (Proc.devRef .tc main_v4) = _
  after_results
  all_goals first | rfl | exact congrArg (fun y => shapeCast S512x16x64 y shapeCasts_S512x1024_S512x16x64) (W2_self m c)

/-- No region and no host operation writes the left operand. -/
theorem W4_arg0 (c : Dev nD) : W4 m c (Proc.devRef .tc main_arg0) = argX m c :=
  (W4_of_ne m c main_arg0 (by decide)).trans <| (StableHlo.after_of_writes_sub hostOps1 _ hostOps1_writes (by decide)).trans <|
    (W2_of_ne m c main_arg0 (by decide)).trans (U1_arg0 m c)

/-- The result: x and what the pairwise region leaves, side by side. -/
theorem W5_v6 (c : Dev nD) : W5 m c (Proc.devRef .tc main_v6)
    = concatenate S512x2112 1 [⟨S512x2048, argX m c⟩, ⟨S512x64, X5 m c⟩] concatenates_S512x2048_S512x64_S512x2112_d1 := by
  show StableHlo.after hostOps2 (W4 m c) (Proc.devRef .tc main_v6) = _
  after_results
  rw [W4_arg0, W4_self]

end Cert.KernelIdeal.Val

end
-- ==== Proof.Val.Bridge.lean ====
/- The bridge: the array the pairwise region leaves is the reference's, entry by entry. Both are
   out(b, o) = Σ over rows b2 of exp(−Σ over k of |f(b, o, k) − f(b2, o, k)|) with f(b, o, k) = Σ over d of x(b, d) · T(d, o·16 + k):
   the kernel reaches f through the column permutation of T and the (row, kernel coordinate, feature) view of its product,
   the reference through the (row, feature, kernel coordinate) view of x·T; the sums start from a zero that the extended
   reals absorb, and 0 − s is −s. -/
import proofs.«171491_j58179626991726_2_alg».proof.Proof.Val.Host
import proofs.«171491_j58179626991726_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

open Cert.ReferenceIdeal (dot_S512x2048_S2048x1024_S512x1024_1_0_0_1_n_n)

/-- The common feature array: f(b, o, k) = Σ over d of x(b, d) · T(d, o·16 + k). -/
def feat (x : S512x2048.Idx → EReal) (T : S2048x1024.Idx → EReal) (b : Fin 512) (o : Fin 64) (k : Fin 16) : EReal :=
  ∑ d : Fin 2048, x (ix2 b d) * T (ix2 d ⟨o.val * 16 + k.val, by omega⟩)

/-- The common result: out(b, o) = Σ over b2 of exp(−Σ over k of |f(b, o, k) − f(b2, o, k)|). -/
def outAt (x : S512x2048.Idx → EReal) (T : S2048x1024.Idx → EReal) (b : Fin 512) (o : Fin 64) : EReal :=
  ∑ b2 : Fin 512, Ideal.exp (-(∑ k : Fin 16, eabs (feat x T b o k - feat x T b2 o k)))

/-! ## The reference -/

/-- The reference's (row, feature, kernel coordinate) view of x·T is the feature array. -/
theorem ref_feat (x : S512x2048.Idx → EReal) (T : S2048x1024.Idx → EReal) (b : Fin 512) (o : Fin 64) (k : Fin 16) :
    Cert.ReferenceIdeal.Read.val_main_v1 (F := Ideal) x T (ix3 b o k) = feat x T b o k := by
  rw [Cert.ReferenceIdeal.Read.val_main_v1_apply, Cert.ReferenceIdeal.Read.val_main_v0_apply]
  unfold feat
  refine Finset.sum_congr rfl fun d _ => ?_
  have e1 : Cert.ReferenceIdeal.Read.lidx_main_v0 (Cert.ReferenceIdeal.Read.idx_main_v1 (ix3 b o k)) d = ix2 b d :=
    funext fun a => Fin.ext (by
      match a with
      | ⟨0, _⟩ => show ((b.val * 64 + o.val) * 16 + k.val) / 1024 = b.val; omega
      | ⟨1, _⟩ => rfl)
  have e2 : Cert.ReferenceIdeal.Read.ridx_main_v0 (Cert.ReferenceIdeal.Read.idx_main_v1 (ix3 b o k)) d = ix2 d ⟨o.val * 16 + k.val, by omega⟩ :=
    funext fun a => Fin.ext (by
      match a with
      | ⟨0, _⟩ => rfl
      | ⟨1, _⟩ => show ((b.val * 64 + o.val) * 16 + k.val) % 1024 = o.val * 16 + k.val; omega)
  rw [e1, e2]

/-- The reference's result array at (b, o). -/
theorem ref_out (x : S512x2048.Idx → EReal) (T : S2048x1024.Idx → EReal) (b : Fin 512) (o : Fin 64) :
    Cert.ReferenceIdeal.Read.val_main_v11 (F := Ideal) x T (ix2 b o) = outAt x T b o := by
  rw [Cert.ReferenceIdeal.Read.val_main_v11_apply, Cert.ReferenceIdeal.Read.val_main_cst_0_apply, Ideal.ofBits_def, Ideal.ofBits_zero_f32, zero_add]
  unfold outAt
  refine Finset.sum_congr rfl fun b2 _ => ?_
  rw [Cert.ReferenceIdeal.Read.val_main_v10_apply, Cert.ReferenceIdeal.Read.val_main_v9_apply, Cert.ReferenceIdeal.Read.val_main_v8_apply,
    Cert.ReferenceIdeal.Read.val_main_cst_apply, Ideal.ofBits_def, Ideal.ofBits_zero_f32, zero_add, Ideal.hostUnary_exp_def, Ideal.hostNegf_def, Ideal.negf_def]
  refine congrArg Ideal.exp (congrArg Neg.neg (Finset.sum_congr rfl fun k _ => ?_))
  rw [Cert.ReferenceIdeal.Read.val_main_v7_apply, Cert.ReferenceIdeal.Read.val_main_v6_apply, Cert.ReferenceIdeal.Read.val_main_v4_apply,
    Cert.ReferenceIdeal.Read.val_main_v5_apply, Cert.ReferenceIdeal.Read.val_main_v2_apply, Cert.ReferenceIdeal.Read.val_main_v3_apply,
    Ideal.hostAbsf_def, Ideal.subf_def]
  have e1 : Cert.ReferenceIdeal.Read.idx_main_v2 (Cert.ReferenceIdeal.Read.idx_main_v4 (Cert.ReferenceIdeal.Read.idx_main_v8 (Cert.ReferenceIdeal.Read.idx_main_v11 (ix2 b o) b2) k)) = ix3 b o k :=
    funext fun a => Fin.ext (by match a with | ⟨0, _⟩ => rfl | ⟨1, _⟩ => rfl | ⟨2, _⟩ => rfl)
  have e2 : Cert.ReferenceIdeal.Read.idx_main_v3 (Cert.ReferenceIdeal.Read.idx_main_v5 (Cert.ReferenceIdeal.Read.idx_main_v8 (Cert.ReferenceIdeal.Read.idx_main_v11 (ix2 b o) b2) k)) = ix3 b2 o k :=
    funext fun a => Fin.ext (by match a with | ⟨0, _⟩ => rfl | ⟨1, _⟩ => rfl | ⟨2, _⟩ => rfl)
  rw [e1, e2, ref_feat, ref_feat]
  rfl

/-! ## The kernel -/

/-- Entry (b, k·64 + o) of the product of x with the permuted T is the feature f(b, o, k). -/
theorem prod_perm (x : S512x2048.Idx → EReal) (T : S2048x1024.Idx → EReal) (b : Fin 512) (k : Fin 16) (o : Fin 64) :
    prodArr x (permT T) (ix2 b ⟨k.val * 64 + o.val, by omega⟩) = feat x T b o k := by
  unfold prodArr prodAt feat
  refine Finset.sum_congr rfl fun d _ => ?_
  exact congrArg (x (ix2 b d) * ·) (permT_apply T d k o)

/-- The pairwise array of the (row, kernel coordinate, feature) view of that product is the common result. -/
theorem pair_of_prod (x : S512x2048.Idx → EReal) (T : S2048x1024.Idx → EReal) (b : Fin 512) (o : Fin 64) :
    pairArr (shapeCast S512x16x64 (prodArr x (permT T)) shapeCasts_S512x1024_S512x16x64) (ix2 b o) = outAt x T b o := by
  have hM : ∀ (b' : Fin 512) (k : Fin 16), shapeCast S512x16x64 (prodArr x (permT T)) shapeCasts_S512x1024_S512x16x64 (ix3 b' k o) = feat x T b' o k := fun b' k => by
    rw [shapeCast_apply _ shapeCasts_S512x1024_S512x16x64 (ix3 b' k o) (ix2 b' ⟨k.val * 64 + o.val, by omega⟩)
      (by rw [Shape.rowMajor_val_three, Shape.rowMajor_val_two]; show b'.val * 1024 + (k.val * 64 + o.val) = (b'.val * 16 + k.val) * 64 + o.val; omega)]
    exact prod_perm x T b' k o
  show pairAt _ b o = _
  unfold pairAt distAt outAt
  refine Finset.sum_congr rfl fun b2 _ => ?_
  rw [zero_sub]
  refine congrArg Ideal.exp (congrArg Neg.neg (Finset.sum_congr rfl fun k _ => ?_))
  rw [hM b k, hM b2 k]

variable (m : (ℓ : Loc nD τ sig) → Buf (Elt Ideal) ℓ)

/-- What the pairwise region leaves in its result array is the reference's result array, given that each region leaves the
    array its specification names. -/
theorem X5_eq
    (h0 : ∀ (V : (c : Dev nD) → (b : Ref sig .tc) → Buf (Elt Ideal) ((c : Thread nD τ).loc b)) (c : Dev nD) (i : S512x1024.Idx),
      (dat0 (F := Ideal) V c).arrAt 2 cfg0.N i = prodArr (V c main_arg0) (V c main_v2) i)
    (h1 : ∀ (V : (c : Dev nD) → (b : Ref sig .tc) → Buf (Elt Ideal) ((c : Thread nD τ).loc b)) (c : Dev nD) (i : S512x64.Idx),
      (dat1 (F := Ideal) V c).arrAt 2 cfg1.N i = pairArr (V c main_v4) i)
    (c : Dev nD) : X5 m c = Cert.ReferenceIdeal.Read.val_main_v11 (F := Ideal) (argX m c) (argT m c) := by
  have hX3 : X3 m c = prodArr (argX m c) (permT (argT m c)) := by
    funext i
    exact (h0 (U1 m) c i).trans (by rw [U1_arg0, U1_v2])
  funext i
  obtain ⟨b, o, rfl⟩ : ∃ (b : Fin 512) (o : Fin 64), i = ix2 b o := ⟨i 0, i 1, eq_ix2 i⟩
  rw [ref_out]
  refine (h1 (U3 m) c (ix2 b o)).trans ?_
  rw [U3_v4, hX3]
  exact pair_of_prod _ _ b o

end Cert.KernelIdeal.Val

end
-- ==== Proof.FrK.Base.lean ====
/- Both kernels' branch conditions in closed form over their grids, the points at which the first kernel's
   output block is left untouched, and the staging and scratch memrefs as each body is called with them. -/
import proofs.«171491_j58179626991726_2_alg».proof.Proof.Gen.Kernel.Launch
import proofs.«171491_j58179626991726_2_alg».proof.Proof.Gen.Kernel.Skeleton
import proofs.«171491_j58179626991726_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The matrix-product kernel: grid (row block i, depth block k), 4 × 4 -/

/-- The first depth block: the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The last depth block: the accumulator is copied to the output block. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
/-- Before the last depth block nothing is stored into the output block, and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S128x1024 .f32 := Memref.whole cc0_scratch0
abbrev VS0 : View sig .tc .vmem S128x1024 .f32 := scM0.view
abbrev VO0 : View sig .tc .vmem S128x1024 .f32 := (Memref.whole cc0_stg2_0 : Memref sig .tc .vmem S128x1024 .f32).view

/-! ## The pairwise kernel: grid (row block i, partner block j), 4 × 64 -/

/-- The first partner block: the output block is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 64 = 0 :=
  (by decide +kernel : ∀ t : Fin grid1.N, cond1_0 (grid1.coords t) ↔ t.val % 64 = 0)

abbrev ms1_0 (t : Fin cfg1.N) : Memref sig .tc .vmem S128x16x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x16x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
abbrev VO1 : View sig .tc .vmem S128x64 .f32 := (Memref.whole cc1_stg2_0 : Memref sig .tc .vmem S128x64 .f32).view

/-- The scoped buffers the first region never touches: the second region's staging buffers, each at some contents. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant of the first region: the accumulator as a memref owned at some contents, the scoped buffers
    it never touches, the generator register. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA; rw [scopedRest0_eq]; simp only [scM0, owns_whole]; try rfl

end Cert.Kernel.Fr

end
-- ==== Proof.FrK.Run0.lean ====
/- The matrix-product kernel's body run on whole staging memrefs, once per way its two conditionals can go
   on the grid: at the first depth block (the accumulator reset, then added to), at an inner depth block
   (added to), at the last depth block (added to, then copied to the output block). What each buffer is
   left holding is recorded as the list of stores made into it, last first. -/
import proofs.«171491_j58179626991726_2_alg».proof.Proof.FrK.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- First depth block: the input blocks at `x0`, `x1`, the output block at `xi2` (not touched), the accumulator at anything. -/
noncomputable def kernelRun0_A (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : cond0_0 i) (hc1 : ¬cond0_1 i)
    (x0 : Vec F S128x512 .f32) (x1 : Vec F S512x1024 .f32) :
    { LS0 : List (View.Piece (Elt F) S128x1024 .f32) //
      ∀ (xi2 : Vec F S128x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- Inner depth block: the accumulator at `xs0`, what the point before left. -/
noncomputable def kernelRun0_B (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : ¬cond0_1 i)
    (x0 : Vec F S128x512 .f32) (x1 : Vec F S512x1024 .f32) (xs0 : Vec F S128x1024 .f32) :
    { LS0 : List (View.Piece (Elt F) S128x1024 .f32) //
      ∀ (xi2 : Vec F S128x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- Last depth block: the accumulator at `xs0`, the output block at anything. -/
noncomputable def kernelRun0_C (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : cond0_1 i)
    (x0 : Vec F S128x512 .f32) (x1 : Vec F S512x1024 .f32) (xs0 : Vec F S128x1024 .f32) :
    Σ' (L2 : List (View.Piece (Elt F) S128x1024 .f32)), { LS0 : List (View.Piece (Elt F) S128x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.FrK.Data0.lean ====
/- The proof data of the matrix-product region, at any contents `V` of the core's buffers when the region is
   entered. The accumulator is carried from point to point: after the point (i, k) it holds the sum over the
   depth blocks 0..k of the products of the row block i of the left operand with the depth blocks of the
   right one; the output block is stored at k = 3 only, and is left untouched and not written back before. -/
import proofs.«171491_j58179626991726_2_alg».proof.Proof.FrK.Run0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## What each case leaves in the accumulator and in the output block -/

theorem scover0_A (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : cond0_0 i) (hc1 : ¬cond0_1 i) (x0 : Vec F S128x512 .f32) (x1 : Vec F S512x1024 .f32) (y : S128x1024.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S128x1024.size (by sl_kernel_rfl) y
/-- The accumulator after a first depth block. -/
def sout0_A (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : cond0_0 i) (hc1 : ¬cond0_1 i) (x0 : Vec F S128x512 .f32) (x1 : Vec F S512x1024 .f32) : Vec F S128x1024 .f32 :=
  VS0.read (Elt F) (VS0.writes (Elt F) VS0.junk (kernelRun0_A c i arg2 harg2 arg3 harg3 arg4 harg4 arg5 harg5 hc0 hc1 x0 x1).1)

theorem scover0_B (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : ¬cond0_1 i) (x0 : Vec F S128x512 .f32) (x1 : Vec F S512x1024 .f32) (xs0 : Vec F S128x1024 .f32) (y : S128x1024.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S128x1024.size (by sl_kernel_rfl) y
/-- The accumulator after an inner depth block. -/
def sout0_B (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : ¬cond0_1 i) (x0 : Vec F S128x512 .f32) (x1 : Vec F S512x1024 .f32) (xs0 : Vec F S128x1024 .f32) : Vec F S128x1024 .f32 :=
  VS0.read (Elt F) (VS0.writes (Elt F) VS0.junk (kernelRun0_B c i arg2 harg2 arg3 harg3 arg4 harg4 arg5 harg5 hc0 hc1 x0 x1 xs0).1)

theorem cover0_C (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : cond0_1 i) (x0 : Vec F S128x512 .f32) (x1 : Vec F S512x1024 .f32) (xs0 : Vec F S128x1024 .f32) (y : S128x1024.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S128x1024.size (by sl_kernel_rfl) y
/-- The output block after a last depth block. -/
def out0_C (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : cond0_1 i) (x0 : Vec F S128x512 .f32) (x1 : Vec F S512x1024 .f32) (xs0 : Vec F S128x1024 .f32) : Vec F S128x1024 .f32 :=
  VO0.read (Elt F) (VO0.writes (Elt F) VO0.junk (kernelRun0_C c i arg2 harg2 arg3 harg3 arg4 harg4 arg5 harg5 hc0 hc1 x0 x1 xs0).1)
theorem scover0_C (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : cond0_1 i) (x0 : Vec F S128x512 .f32) (x1 : Vec F S512x1024 .f32) (xs0 : Vec F S128x1024 .f32) (y : S128x1024.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S128x1024.size (by sl_kernel_rfl) y
/-- The accumulator after a last depth block. -/
def sout0_C (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : cond0_1 i) (x0 : Vec F S128x512 .f32) (x1 : Vec F S512x1024 .f32) (xs0 : Vec F S128x1024 .f32) : Vec F S128x1024 .f32 :=
  VS0.read (Elt F) (VS0.writes (Elt F) VS0.junk (kernelRun0_C c i arg2 harg2 arg3 harg3 arg4 harg4 arg5 harg5 hc0 hc1 x0 x1 xs0).2.1)

/-- Contents nothing consults: the output block's entry at a point that stores nothing into it. -/
def junkOut0 : Vec F S128x1024 .f32 := VO0.read (Elt F) VO0.junk

section Region0
variable (V : (c : Dev nD) → (b : Ref sig .tc) → Buf (Elt F) ((c : Thread nD τ).loc b))

/-- What the output block's staging buffer and the accumulator hold after the body at position `n`: the case the point is
    in, run at the point's memrefs and input blocks, the accumulator read at what the point before left. -/
def outsAt0 (c : Dev nD) : (n : ℕ) → n < cfg0.N → Vec F S128x1024 .f32 × Vec F S128x1024 .f32
  | 0, hn => (junkOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (junkOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (junkOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (junkOut0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (junkOut0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards the
    accumulator at what the point before left in it, the untouched scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-- The proof data of the matrix-product region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in; the
    invariant hands the body the accumulator at what the point before left (at anything at the first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · by_cases h1 : t.val % 4 = 3
    · exfalso; omega
    · rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _)
            iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _)
            iexact Hoth
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 16 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  iintro ⟨⟨HS0, Hoth⟩, Hg⟩
  isplitl [HS0 Hoth]
  · isplitl [HS0]
    · iexists _; iexact HS0
    iexact Hoth
  iexact Hg

end Region0

end Cert.Kernel.Fr

end
-- ==== Proof.FrK.Run1.lean ====
/- The pairwise kernel's body run on whole staging memrefs, once per way its one conditional can go on the
   grid: at the first partner block (the output block reset, then added to) and at a later one (added to
   what the point before left). What the output block is left holding is recorded as the list of stores
   made into it, last first. -/
import proofs.«171491_j58179626991726_2_alg».proof.Proof.FrK.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- First partner block: the row block at `x0`, the partner block at `x1`, the output block at anything. -/
noncomputable def kernelRun1_A (c : Dev nD) (i : grid1.Coords) (arg2 : Memref sig .tc .vmem S128x16x64 .f32) (harg2 : arg2.IsWhole) (arg3 : Memref sig .tc .vmem S8x16x64 .f32) (harg3 : arg3.IsWhole) (arg4 : Memref sig .tc .vmem S128x64 .f32) (harg4 : arg4.IsWhole) (hc0 : cond1_0 i)
    (x0 : Vec F S128x16x64 .f32) (x1 : Vec F S8x16x64 .f32) :
    { L2 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__pairwise_kernel i arg2 harg2 arg3 harg3 arg4 harg4) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 2000000 in
/-- A later partner block: the output block at `xo`, what the point before left. -/
noncomputable def kernelRun1_B (c : Dev nD) (i : grid1.Coords) (arg2 : Memref sig .tc .vmem S128x16x64 .f32) (harg2 : arg2.IsWhole) (arg3 : Memref sig .tc .vmem S8x16x64 .f32) (harg3 : arg3.IsWhole) (arg4 : Memref sig .tc .vmem S128x64 .f32) (harg4 : arg4.IsWhole) (hc0 : ¬cond1_0 i)
    (x0 : Vec F S128x16x64 .f32) (x1 : Vec F S8x16x64 .f32) (xo : Vec F S128x64 .f32) :
    { L2 : List (View.Piece (Elt F) S128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__pairwise_kernel i arg2 harg2 arg3 harg3 arg4 harg4) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Fr

end
-- ==== Proof.FrK.Data1.lean ====
/- The proof data of the pairwise region, at any contents `V` of the core's buffers when the region is entered.
   The output block of the row block i is reset at the partner block j = 0 and added to at every later j, so after
   the point (i, j) it holds the sum over the partner blocks 0..j; it is written back at j = 63. The two input
   windows read one array, which they hold at the two halves of the full share. -/
import proofs.«171491_j58179626991726_2_alg».proof.Proof.FrK.Run1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

theorem cover1_A (c : Dev nD) (i : grid1.Coords) (arg2 : Memref sig .tc .vmem S128x16x64 .f32) (harg2 : arg2.IsWhole) (arg3 : Memref sig .tc .vmem S8x16x64 .f32) (harg3 : arg3.IsWhole) (arg4 : Memref sig .tc .vmem S128x64 .f32) (harg4 : arg4.IsWhole) (hc0 : cond1_0 i) (x0 : Vec F S128x16x64 .f32) (x1 : Vec F S8x16x64 .f32) (y : S128x64.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S128x64.size (by sl_kernel_rfl) y
/-- The output block after a first partner block. -/
def out1_A (c : Dev nD) (i : grid1.Coords) (arg2 : Memref sig .tc .vmem S128x16x64 .f32) (harg2 : arg2.IsWhole) (arg3 : Memref sig .tc .vmem S8x16x64 .f32) (harg3 : arg3.IsWhole) (arg4 : Memref sig .tc .vmem S128x64 .f32) (harg4 : arg4.IsWhole) (hc0 : cond1_0 i) (x0 : Vec F S128x16x64 .f32) (x1 : Vec F S8x16x64 .f32) : Vec F S128x64 .f32 :=
  VO1.read (Elt F) (VO1.writes (Elt F) VO1.junk (kernelRun1_A c i arg2 harg2 arg3 harg3 arg4 harg4 hc0 x0 x1).1)

theorem cover1_B (c : Dev nD) (i : grid1.Coords) (arg2 : Memref sig .tc .vmem S128x16x64 .f32) (harg2 : arg2.IsWhole) (arg3 : Memref sig .tc .vmem S8x16x64 .f32) (harg3 : arg3.IsWhole) (arg4 : Memref sig .tc .vmem S128x64 .f32) (harg4 : arg4.IsWhole) (hc0 : ¬cond1_0 i) (x0 : Vec F S128x16x64 .f32) (x1 : Vec F S8x16x64 .f32) (xo : Vec F S128x64 .f32) (y : S128x64.Idx) :
    ∃ pc ∈ (kernelRun1_B c i arg2 harg2 arg3 harg3 arg4 harg4 hc0 x0 x1 xo).1, y ∈ pc.1.set :=
  View.cover_of_tiledL (kernelRun1_B c i arg2 harg2 arg3 harg3 arg4 harg4 hc0 x0 x1 xo).1 S128x64.size (by sl_kernel_rfl) y
/-- The output block after a later partner block, from what the point before left in it. -/
def out1_B (c : Dev nD) (i : grid1.Coords) (arg2 : Memref sig .tc .vmem S128x16x64 .f32) (harg2 : arg2.IsWhole) (arg3 : Memref sig .tc .vmem S8x16x64 .f32) (harg3 : arg3.IsWhole) (arg4 : Memref sig .tc .vmem S128x64 .f32) (harg4 : arg4.IsWhole) (hc0 : ¬cond1_0 i) (x0 : Vec F S128x16x64 .f32) (x1 : Vec F S8x16x64 .f32) (xo : Vec F S128x64 .f32) : Vec F S128x64 .f32 :=
  VO1.read (Elt F) (VO1.writes (Elt F) VO1.junk (kernelRun1_B c i arg2 harg2 arg3 harg3 arg4 harg4 hc0 x0 x1 xo).1)

section Region1
variable (V : (c : Dev nD) → (b : Ref sig .tc) → Buf (Elt F) ((c : Thread nD τ).loc b))

/-- What the output block's staging buffer holds after the body at position `n`. -/
def outsAt1 (c : Dev nD) : (n : ℕ) → n < cfg1.N → Vec F S128x64 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 64 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 64 = 0) :
    outsAt1 V c t.val t.isLt = out1_A c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 64 = 0) :
    outsAt1 V c t.val t.isLt = out1_B c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the pairwise region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a later partner block the output's staging buffer holds what the body left at the point before: the buffer was
    not written back between. -/
theorem before1_2_B (c : Dev nD) (t : Fin cfg1.N) (h0 : ¬t.val % 64 = 0) (d) :
    (dat1 V c).before 2 t d = outsAt1 V c (t.val - 1) (Nat.lt_of_le_of_lt (Nat.sub_le _ _) t.isLt) := by
  have hN : t.val < 256 := lt_of_lt_of_eq t.isLt (show cfg1.N = 256 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 256 := lt_of_lt_of_eq t.isLt (show cfg1.N = 256 from N_1)
  by_cases h0 : t.val % 64 = 0
  · rw [outsAt1_A V c t h0]
    unfold out1_A
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A c _ _ _ _ _ _ _ _ _ _)
  · rw [outsAt1_B V c t h0]
    simp only [before1_2_B V c t h0]
    unfold out1_B
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.FrK.Run.lean ====
/- The run of the whole program: the host operations before, between and after the two regions as segments over the
   contents of every unscoped buffer, each region as a segment whose arrays are split out of those buffers at its
   entry and put back at its exit at what its write-backs leave; at the end every unscoped buffer holds the last
   boundary's contents. -/
import proofs.«171491_j58179626991726_2_alg».proof.Proof.FrK.Data0
import proofs.«171491_j58179626991726_2_alg».proof.Proof.FrK.Data1
import proofs.«171491_j58179626991726_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 (c : Dev nD) : Valuation τ sig (Elt F) := fun b => m (c, b)
/-- After the host operations that permute the right operand's columns. -/
abbrev W1 (c : Dev nD) : Valuation τ sig (Elt F) := StableHlo.after hostOps0 (W0 m c)
abbrev U1 : (c : Dev nD) → (b : Ref sig .tc) → Buf (Elt F) ((c : Thread nD τ).loc b) := fun c b => W1 m c b
/-- What the matrix-product region leaves in its result array. -/
def X3 (c : Dev nD) : Buf (Elt F) ((c : Thread nD τ).loc main_v3) := (dat0 (U1 m) c).arrAt 2 cfg0.N
/-- After the matrix-product region. -/
def W2 (c : Dev nD) : Valuation τ sig (Elt F) := Function.update (W1 m c) main_v3 (X3 m c)
abbrev U2 : (c : Dev nD) → (b : Ref sig .tc) → Buf (Elt F) ((c : Thread nD τ).loc b) := fun c b => W2 m c b
/-- After the reshape of the product to (row, kernel coordinate, feature). -/
abbrev W3 (c : Dev nD) : Valuation τ sig (Elt F) := StableHlo.after hostOps1 (W2 m c)
abbrev U3 : (c : Dev nD) → (b : Ref sig .tc) → Buf (Elt F) ((c : Thread nD τ).loc b) := fun c b => W3 m c b
/-- What the pairwise region leaves in its result array. -/
def X5 (c : Dev nD) : Buf (Elt F) ((c : Thread nD τ).loc main_v5) := (dat1 (U3 m) c).arrAt 2 cfg1.N
/-- After the pairwise region. -/
def W4 (c : Dev nD) : Valuation τ sig (Elt F) := Function.update (W3 m c) main_v5 (X5 m c)
abbrev U4 : (c : Dev nD) → (b : Ref sig .tc) → Buf (Elt F) ((c : Thread nD τ).loc b) := fun c b => W4 m c b
/-- After the concatenation. -/
abbrev W5 (c : Dev nD) : Valuation τ sig (Elt F) := StableHlo.after hostOps2 (W4 m c)

theorem W2_self (c : Dev nD) : W2 m c (Proc.devRef .tc main_v3) = X3 m c := Function.update_self ..
theorem W2_of_ne (c : Dev nD) (b : Ref sig .tc) (h : b ≠ main_v3) : W2 m c (Proc.devRef .tc b) = W1 m c (Proc.devRef .tc b) :=
  Function.update_of_ne (StableHlo.devRef_ne_of_ne h) ..
theorem W4_self (c : Dev nD) : W4 m c (Proc.devRef .tc main_v5) = X5 m c := Function.update_self ..
theorem W4_of_ne (c : Dev nD) (b : Ref sig .tc) (h : b ≠ main_v5) : W4 m c (Proc.devRef .tc b) = W3 m c (Proc.devRef .tc b) :=
  Function.update_of_ne (StableHlo.devRef_ne_of_ne h) ..

/-! ## The proof data family and the thread state -/

abbrev adm' : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The matrix-product region as a segment -/

theorem hF0 (c : Dev nD) (w : Fin cfg0.W) : (pdats m 0 c).arrAt w cfg0.N = U2 m c (Pipeline.arrRef spec0 w) := by
  match w with
  | ⟨0, _⟩ => exact ((dat0 (U1 m) c).arrAt_in 0 rfl _).trans ((A_eq0 (U1 m) c 0).trans (W2_of_ne m c main_arg0 (by decide)).symm)
  | ⟨1, _⟩ => exact ((dat0 (U1 m) c).arrAt_in 1 rfl _).trans ((A_eq0 (U1 m) c 1).trans (W2_of_ne m c main_v2 (by decide)).symm)
  | ⟨2, _⟩ => exact (W2_self m c).symm
theorem hrest0 (c : Dev nD) : ∀ b, b ∉ Finset.univ.image (Pipeline.arrRef spec0) → U2 m c b = U1 m c b :=
  fun b hb => W2_of_ne m c b fun e => hb (Finset.mem_image.mpr ⟨2, Finset.mem_univ _, e.symm⟩)

set_option backward.isDefEq.respectTransparency.types false in
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The pairwise region as a segment: its two input windows share the reshaped product -/

/-- The buffers behind the pairwise region's arrays: the reshaped product and the result. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v5) ↦{fullShare} V main_v5)) := by
  unfold Pipeline.arrBufs
  exact bigSep_eq_bigSepL_of_eq [main_v4, main_v5] (by decide) (by decide) _

/-- The pairwise region's arrays as it holds them: the reshaped product at the two halves of the full share, one per
    input window, and the result outright. -/
theorem arrays1_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 V c).arrays Fa : sProp 𝕄)
      = iprop((((c : Thread nD τ).loc main_v4) ↦{fullShare.left} Fa 0) ∗ (((c : Thread nD τ).loc main_v4) ↦{fullShare.right} Fa 1)
          ∗ (((c : Thread nD τ).loc main_v5) ↦{fullShare} Fa 2)) := by
  unfold Pipeline.Dat.arrays
  rw [bigSep_W1, (arr_whole1 0).set_eq_univ, (arr_whole1 2).set_eq_univ]
  rfl

theorem held_split1 (c : Dev nD) (W : Valuation τ sig (Elt F)) :
    (StableHlo.held (c : Thread nD τ) (Pipeline.ucRefs τ sig) W : sProp 𝕄)
      = iprop(((((c : Thread nD τ).loc main_v4) ↦{fullShare} W main_v4) ∗ (((c : Thread nD τ).loc main_v5) ↦{fullShare} W main_v5))
          ∗ Pipeline.unscopedRest (Ix := Unit) (Name := ℕ) (U := UR sig nD τ) (Lvl := ℕ) spec1 c (fun b => W b)) := by
  rw [← Pipeline.unscopedBufs_held, Pipeline.unscopedBufs_split₀ cfgs 1 winFacts₀1.arr_unscoped c (fun b => W b)]
  rw [show (Pipeline.arrBufs (Ix := Unit) (Name := ℕ) (U := UR sig nD τ) (Lvl := ℕ) (cfgs 1).spec c (fun b : Ref sig .tc => W b) : sProp 𝕄) = Pipeline.arrBufs spec1 c (fun b => W b) from rfl, arrBufs1_eq]
  rfl

/-- A whole buffer held outright is held at the two halves of the full share, and back. -/
theorem share_halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

theorem rest1_congr (c : Dev nD) :
    (Pipeline.unscopedRest (Ix := Unit) (Name := ℕ) (U := UR sig nD τ) (Lvl := ℕ) spec1 c (U4 m c) : sProp 𝕄)
      = Pipeline.unscopedRest spec1 c (U3 m c) := by
  unfold Pipeline.unscopedRest
  exact bigSep_congr fun b hb => by
    rw [show U4 m c b = U3 m c b from W4_of_ne m c b fun e => (Finset.mem_sdiff.mp hb).2 (Finset.mem_image.mpr ⟨2, Finset.mem_univ _, e.symm⟩)]

set_option backward.isDefEq.respectTransparency.types false in
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none, held_split1,
      show ((pdats m 1 c).arrays ((pdats m 1 c).arrAt · 0) : sProp 𝕄) = (dat1 (U3 m) c).arrays ((dat1 (U3 m) c).arrAt · 0) from rfl, arrays1_eq]
    iintro ⟨⟨⟨⟨H4, H5⟩, Hrest⟩, Hp, HO⟩, -, -⟩
    ihave H4' := (share_halves (F := F) (ℓ := (c : Thread nD τ).loc main_v4) (U3 m c main_v4)).1 $$ H4
    icases H4' with ⟨H4l, H4r⟩
    imodintro
    isplitl [H4l H4r H5]
    · isplitl [H4l]; · iexact H4l
      isplitl [H4r]; · iexact H4r
      iexact H5
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [held_split1, show (fun b : Ref sig .tc => W4 m c b) = U4 m c from rfl, rest1_congr,
      show ((pdats m 1 c).arrays (fun x => (pdats m 1 c).arrAt x (Pipeline.pin (pcfgs (F := F)) adm' 1).N) : sProp 𝕄) = (dat1 (U3 m) c).arrays (fun x => (dat1 (U3 m) c).arrAt x cfg1.N) from rfl, arrays1_eq,
      (dat1 (U3 m) c).arrAt_in 0 rfl cfg1.N, (dat1 (U3 m) c).arrAt_in 1 rfl cfg1.N, W4_self, W4_of_ne m c main_v4 (by decide)]
    iintro ⟨⟨H4l, H4r, H5⟩, HO, HY, Hrest⟩
    imodintro
    isplitl [H4l H4r H5 Hrest]
    · isplitl [H4l H4r H5]
      · isplitl [H4l H4r]
        · iapply (share_halves (F := F) (ℓ := (c : Thread nD τ).loc main_v4) (U3 m c main_v4)).2
          isplitl [H4l]; · iexact H4l
          iexact H4r
        iexact H5
      iexact Hrest
    isplitl [HY]; · iexact HY
    unfold Pipeline.Dat.owesAt Pipeline.owesWithin
    icases HO with ⟨%W, -, HO⟩; iexists W; iexact HO

/-! ## @main as segments, and the launch -/

theorem hostOps0_fresh' : (hostOps0 : List (HloOp τ sig (Elt F))).Forall fun op => op.fresh = ∅ := hostOps0_fresh
abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and in
    every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := by
      refine ⟨fun _ => .rfl, fun _ => .rfl, fun _ => .rfl, fun _ => .rfl, fun _ => .rfl, fun c => ?_⟩
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- No host operation and no region writes an argument: the last boundary holds each as launched. -/
theorem W5_arg0 (c : Dev nD) : W5 m c (Proc.devRef .tc main_arg0) = m ((c : Thread nD τ).loc main_arg0) :=
  (StableHlo.after_of_writes_sub hostOps2 _ hostOps2_writes (by decide)).trans <| (W4_of_ne m c main_arg0 (by decide)).trans <|
    (StableHlo.after_of_writes_sub hostOps1 _ hostOps1_writes (by decide)).trans <| (W2_of_ne m c main_arg0 (by decide)).trans <|
    (StableHlo.after_of_writes_sub hostOps0 _ hostOps0_writes (by decide)).trans rfl
theorem W5_arg1 (c : Dev nD) : W5 m c (Proc.devRef .tc main_arg1) = m ((c : Thread nD τ).loc main_arg1) :=
  (StableHlo.after_of_writes_sub hostOps2 _ hostOps2_writes (by decide)).trans <| (W4_of_ne m c main_arg1 (by decide)).trans <|
    (StableHlo.after_of_writes_sub hostOps1 _ hostOps1_writes (by decide)).trans <| (W2_of_ne m c main_arg1 (by decide)).trans <|
    (StableHlo.after_of_writes_sub hostOps0 _ hostOps0_writes (by decide)).trans rfl

/-- The run with the result buffer named: it ends holding the last boundary's contents, the arguments as launched. -/
theorem run_value : θ_run defs (onTc (τ := τ) (main (F := F))) ⟨m, fun _ => 0, ρ⟩ (fun r => ∀ c : Dev nD,
      r.2.mem ((c.tc : Thread nD τ).loc main_v6) = W5 m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c _ (mem_uc main_v6 (by decide)),
    (h c _ (mem_uc main_arg0 (by decide))).trans (W5_arg0 m c), (h c _ (mem_uc main_arg1 (by decide))).trans (W5_arg1 m c)⟩) (run_main m ρ)

/-- The frame: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_value m ρ)

end Cert.Kernel.Fr

end
-- ==== Proof.Val.Claims.lean ====
/- The claims: both kernels' programs run to the end with their arguments unchanged (the run over the segments), the
   reference runs (its operations one after the other), and at the extended reals the two results are one array: the
   left operand beside the common pairwise array. -/
import proofs.«171491_j58179626991726_2_alg».proof.Defs
import proofs.«171491_j58179626991726_2_alg».proof.Proof.Val.Bridge
import proofs.«171491_j58179626991726_2_alg».proof.Proof.FrK.Run
import proofs.«171491_j58179626991726_2_alg».proof.Proof.Gen.ReferenceIdeal.Run
import proofs.«171491_j58179626991726_2_alg».proof.Proof.Gen.Pre_finite_inputs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the left operand beside one and the same [512, 64] array, given that each region
    leaves the array its specification names. -/
theorem algebraic_of
    (h0 : ∀ (V : (c : Dev nD) → (b : Ref sig .tc) → Buf (Elt Ideal) ((c : Thread nD τ).loc b)) (c : Dev nD) (i : S512x1024.Idx),
      (dat0 (F := Ideal) V c).arrAt 2 cfg0.N i = prodArr (V c main_arg0) (V c main_v2) i)
    (h1 : ∀ (V : (c : Dev nD) → (b : Ref sig .tc) → Buf (Elt Ideal) ((c : Thread nD τ).loc b)) (c : Dev nD) (i : S512x64.Idx),
      (dat1 (F := Ideal) V c).arrAt 2 cfg1.N i = pairArr (V c main_v4) i) :
    Cert.algebraic_KernelIdeal_ReferenceIdeal := by
  intro m ρ m' ρ' _ hagree
  refine ⟨fun c => concatenate S512x2112 1 [⟨S512x2048, argX m c⟩, ⟨S512x64, Cert.ReferenceIdeal.Read.val_main_v11 (F := Ideal) (argX m c) (argT m c)⟩] concatenates_S512x2048_S512x64_S512x2112_d1, ?_, ?_⟩
  · refine (θ_run Cert.KernelIdeal.defs _ _).mono (fun r h c => ⟨?_, (h c).2.1, (h c).2.2⟩) (Cert.KernelIdeal.Fr.run_value (F := Ideal) m ρ)
    rw [(h c).1, W5_v6, X5_eq m h0 h1 c]
  · refine (θ_run Cert.ReferenceIdeal.defs _ _).mono (fun r h c => ⟨?_, (h c).2.1, (h c).2.2⟩) (Cert.ReferenceIdeal.Value.run (F := Ideal) m' ρ')
    rw [(h c).1, Cert.ReferenceIdeal.Read.val_main_v12_eq, (hagree c).1, (hagree c).2]
    rfl

end Cert.KernelIdeal.Val

end
-- ==== Proof.Val.Region0Pay.lean ====
/- One depth block's step of the matrix-product kernel on its accumulator, entry by entry on the extended reals: the
   accumulator's entry plus the sum over the block's depth of the products of the two input blocks' entries. -/
import proofs.«171491_j58179626991726_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! The block product's contraction: a [128, 512] block times a [512, 1024] block contracts the second axis of the
    left one against the first axis of the right one. -/

theorem lhs_row (i : S128x1024.Idx) (q : dot_S128x512_S512x1024_S128x1024_1_0_0_1_n_n.contr.Idx) :
    (dot_S128x512_S512x1024_S128x1024_1_0_0_1_n_n.lhsIdx i q 0).val = (i 0).val := by
  unfold DotDims.lhsIdx
  rw [dif_neg (show ¬(0 : Fin S128x512.rank) ∈ dot_S128x512_S512x1024_S128x1024_1_0_0_1_n_n.lhsBatch by decide), dif_pos (show (0 : Fin S128x512.rank) ∈ dot_S128x512_S512x1024_S128x1024_1_0_0_1_n_n.lhsNonContracting by decide)]
  rfl
theorem lhs_depth (i : S128x1024.Idx) (q : dot_S128x512_S512x1024_S128x1024_1_0_0_1_n_n.contr.Idx) :
    (dot_S128x512_S512x1024_S128x1024_1_0_0_1_n_n.lhsIdx i q 1).val = (q ⟨0, by decide⟩).val :=
  dot_S128x512_S512x1024_S128x1024_1_0_0_1_n_n.lhsIdx_val_of_single rfl i q
theorem rhs_depth (i : S128x1024.Idx) (q : dot_S128x512_S512x1024_S128x1024_1_0_0_1_n_n.contr.Idx) :
    (dot_S128x512_S512x1024_S128x1024_1_0_0_1_n_n.rhsIdx i q 0).val = (q ⟨0, by decide⟩).val :=
  dot_S128x512_S512x1024_S128x1024_1_0_0_1_n_n.rhsIdx_val_of_single rfl i q
theorem rhs_col (i : S128x1024.Idx) (q : dot_S128x512_S512x1024_S128x1024_1_0_0_1_n_n.contr.Idx) :
    (dot_S128x512_S512x1024_S128x1024_1_0_0_1_n_n.rhsIdx i q 1).val = (i 1).val := by
  unfold DotDims.rhsIdx
  rw [dif_neg (show ¬(1 : Fin S512x1024.rank) ∈ dot_S128x512_S512x1024_S128x1024_1_0_0_1_n_n.rhsBatch by decide), dif_pos (show (1 : Fin S512x1024.rank) ∈ dot_S128x512_S512x1024_S128x1024_1_0_0_1_n_n.rhsNonContracting by decide)]
  rfl

/-- The block product into the zero block, at the entry (r, n): the sum over the depth d of A(r, d) · B(d, n). -/
theorem blockProd_apply (A : FVec Ideal S128x512 .bf16) (B : FVec Ideal S512x1024 .bf16) (r : Fin 128) (n : Fin 1024) :
    matmul dot_S128x512_S512x1024_S128x1024_1_0_0_1_n_n none A B (constant (F := Ideal) S128x1024 .f32 0x00000000#32) (ix2 r n)
      = ∑ d : Fin 512, A (ix2 r d) * B (ix2 d n) := by
  show FloatOps.matmul dot_S128x512_S512x1024_S128x1024_1_0_0_1_n_n none A B (constant (F := Ideal) S128x1024 .f32 0x00000000#32) (ix2 r n) = _
  rw [Ideal.matmul_constant_zero_apply, ← Equiv.sum_comp (ValueIdx.contrEquiv1 dot_S128x512_S512x1024_S128x1024_1_0_0_1_n_n 512 rfl rfl).symm]
  refine Finset.sum_congr rfl fun k _ => ?_
  have hk := ValueIdx.contrEquiv1_symm_val dot_S128x512_S512x1024_S128x1024_1_0_0_1_n_n 512 rfl rfl k
  have el : dot_S128x512_S512x1024_S128x1024_1_0_0_1_n_n.lhsIdx (ix2 r n) ((ValueIdx.contrEquiv1 dot_S128x512_S512x1024_S128x1024_1_0_0_1_n_n 512 rfl rfl).symm k) = ix2 r k := funext fun a => Fin.ext (by
    match a with
    | ⟨0, _⟩ => exact lhs_row _ _
    | ⟨1, _⟩ => exact (lhs_depth _ _).trans hk)
  have er : dot_S128x512_S512x1024_S128x1024_1_0_0_1_n_n.rhsIdx (ix2 r n) ((ValueIdx.contrEquiv1 dot_S128x512_S512x1024_S128x1024_1_0_0_1_n_n 512 rfl rfl).symm k) = ix2 k n := funext fun a => Fin.ext (by
    match a with
    | ⟨0, _⟩ => exact (rhs_depth _ _).trans hk
    | ⟨1, _⟩ => exact rhs_col _ _)
  rw [el, er]

/-- One depth block's step on the accumulator, at the entry (r, n): what the accumulator held there plus the block
    product's entry (changing the float format is the identity on the extended reals). -/
theorem pay2_apply (x0 : Vec Ideal S128x512 .f32) (x1 : Vec Ideal S512x1024 .f32) (acc : Vec Ideal S128x1024 .f32) (r : Fin 128) (n : Fin 1024) :
    k0_pay2 (F := Ideal) x0 x1 acc (ix2 r n) = acc (ix2 r n) + ∑ d : Fin 512, x0 (ix2 r d) * x1 (ix2 d n) := by
  unfold k0_pay2
  simp only [shapeCast_self]
  refine (congrArg (fun z => acc (ix2 r n) + z) (blockProd_apply _ _ r n)).trans ?_
  rfl

/-- The zero block, at an entry. -/
theorem pay1_apply (r : Fin 128) (n : Fin 1024) : k0_pay1 (F := Ideal) (ix2 r n) = 0 := by
  unfold k0_pay1
  simp only [shapeCast_self]
  exact Ideal.ofBits_zero_f32

end Cert.KernelIdeal.Val.Region0

end
-- ==== Proof.Val.Region0Pieces.lean ====
/- What each way through the matrix-product kernel's body leaves in the accumulator and in the output block, as one
   function of the input blocks and of what the accumulator held: at the first depth block the step applied to the zero
   block just stored, at a later one the step applied to what the point before left, and at the last one the output
   block is a copy of the accumulator just stored. Generic in the float values. -/
import proofs.«171491_j58179626991726_2_alg».proof.Proof.Fr.Data0
import Idealize.ShloMosaic.Lib.Pipeline.Value
import Idealize.ShloMosaic.Lib.Tactic
import Idealize.ShloMosaic.Lib.ValueIdx

set_option maxRecDepth 16384

noncomputable section

namespace Cert.KernelIdeal.Val.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr
open Idealize.ShloMosaic.Tactic

variable {F : FTy → Type} [FloatOps F]

/-- The zero offsets, as a function. -/
theorem hz2 : (![0, 0] : Fin 2 → Nat) = fun _ => 0 := funext fun a => by fin_cases a <;> rfl

/-- An inner depth block: the accumulator ends at the step of the input blocks on what it held. -/
theorem sout0_B_eq (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : ¬cond0_1 i) (x0 : Vec F S128x512 .f32) (x1 : Vec F S512x1024 .f32) (xs0 : Vec F S128x1024 .f32) :
    sout0_B c i arg2 harg2 arg3 harg3 arg4 harg4 arg5 harg5 hc0 hc1 x0 x1 xs0 = k0_pay2 x0 x1 xs0 := by
  unfold sout0_B
  rw [View.read_writes_eq_canon _ _ _ (scover0_B c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg5.read_unread, View.ld_unit_zero (S := S128x512) hz2, View.ld_unit_zero (S := S512x1024) hz2, View.ld_unit_zero (S := S128x1024) hz2]

/-- The first depth block: the accumulator ends at the step of the input blocks on the zero block. -/
theorem sout0_A_eq (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : cond0_0 i) (hc1 : ¬cond0_1 i) (x0 : Vec F S128x512 .f32) (x1 : Vec F S512x1024 .f32) :
    sout0_A c i arg2 harg2 arg3 harg3 arg4 harg4 arg5 harg5 hc0 hc1 x0 x1 = k0_pay2 x0 x1 k0_pay1 := by
  unfold sout0_A
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero (S := S128x1024) hz2, View.readCov_unit_zero (S := S128x1024) _ hz2]
  simp only [View.readAt_eq_ld, harg2.read_unread, harg3.read_unread, View.ld_unit_zero (S := S128x512) hz2, View.ld_unit_zero (S := S512x1024) hz2]

/-- The last depth block: the accumulator ends at the step of the input blocks on what it held, -/
theorem sout0_C_eq (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : cond0_1 i) (x0 : Vec F S128x512 .f32) (x1 : Vec F S512x1024 .f32) (xs0 : Vec F S128x1024 .f32) :
    sout0_C c i arg2 harg2 arg3 harg3 arg4 harg4 arg5 harg5 hc0 hc1 x0 x1 xs0 = k0_pay2 x0 x1 xs0 := by
  unfold sout0_C
  rw [View.read_writes_eq_canon _ _ _ (scover0_C c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S128x512) hz2, View.ld_unit_zero (S := S512x1024) hz2, View.ld_unit_zero (S := S128x1024) hz2]

/-- and the output block is stored with the same. -/
theorem out0_C_eq (c : Dev nD) (i : grid0.Coords) (arg2 : Memref sig .tc .vmem S128x512 .f32) (harg2 : arg2.IsWhole) (arg3 : Memref sig .tc .vmem S512x1024 .f32) (harg3 : arg3.IsWhole) (arg4 : Memref sig .tc .vmem S128x1024 .f32) (harg4 : arg4.IsWhole) (arg5 : Memref sig .tc .vmem S128x1024 .f32) (harg5 : arg5.IsWhole) (hc0 : ¬cond0_0 i) (hc1 : cond0_1 i) (x0 : Vec F S128x512 .f32) (x1 : Vec F S512x1024 .f32) (xs0 : Vec F S128x1024 .f32) :
    out0_C c i arg2 harg2 arg3 harg3 arg4 harg4 arg5 harg5 hc0 hc1 x0 x1 xs0 = k0_pay2 x0 x1 xs0 := by
  unfold out0_C
  rw [View.read_writes_eq_canon _ _ _ (cover0_C c i arg2 harg2 arg3 harg3 arg4 harg4 arg5 harg5 hc0 hc1 x0 x1 xs0)]
  unfold kernelRun0_C
  dsimp only
  sl_unfold_words
  rw [View.canon_unit_zero hz2, View.readCov_unit_zero (S := S128x1024) _ hz2]
  simp only [View.readAt_eq_ld, harg2.read_unread, harg3.read_unread, harg5.read_unread, View.ld_unit_zero (S := S128x512) hz2, View.ld_unit_zero (S := S512x1024) hz2, View.ld_unit_zero (S := S128x1024) hz2]

end Cert.KernelIdeal.Val.Region0

end
-- ==== Proof.Val.Region0Fold.lean ====
/- The matrix-product kernel's accumulator along the depth blocks of one row block, on the extended reals. The grid point
   t = 4·i + k works on row block i and depth block k: the left operand's block is rows 128·i.. and depths 512·k.., the
   right operand's block depths 512·k.. and all columns. The accumulator is reset at k = 0 and each point adds its depth
   block's products, so after k = 3 it holds, at (r, n), the sum over the four depth blocks of the sums over each block's
   depth, which is the sum over the whole depth 2048: the product's entry at row 128·i + r and column n. Addition on the
   extended reals is a commutative monoid, so the regrouping asks nothing of the entries. -/
import proofs.«171491_j58179626991726_2_alg».proof.Proof.Val.Region0Pay
import proofs.«171491_j58179626991726_2_alg».proof.Proof.Val.Region0Pieces
import proofs.«171491_j58179626991726_2_alg».proof.Proof.Val.Spec
import Idealize.ShloMosaic.Lib.Pipeline.Value
import Idealize.ShloMosaic.Lib.ValueIdx

set_option maxRecDepth 16384

noncomputable section

namespace Cert.KernelIdeal.Val.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

/-! ## Where a block's entry sits in its array -/

/-- Row r of row block q, as a row of the whole [512, ·] array: 128·q + r. -/
def rowIx (q : Nat) (r : Fin 128) : Fin 512 := ⟨(128 * q + r.val) % 512, Nat.mod_lt _ (by decide)⟩
/-- Depth d of depth block k, as a depth of the whole [·, 2048] / [2048, ·] array: 512·k + d. -/
def depIx (k : Nat) (d : Fin 512) : Fin 2048 := ⟨(512 * k + d.val) % 2048, Nat.mod_lt _ (by decide)⟩

/-! ## The sum over the depth, cut into four blocks -/

/-- What the depth block k adds at the entry (r, n) of row block q: the sum over the block's depth of the products. -/
def blockTerm (A : S512x2048.Idx → EReal) (B : S2048x1024.Idx → EReal) (q k : Nat) (r : Fin 128) (n : Fin 1024) : EReal :=
  ∑ d : Fin 512, A (ix2 (rowIx q r) (depIx k d)) * B (ix2 (depIx k d) n)

/-- A sum over the depth 2048 is the sum over the four depth blocks of the sums over each block's depth 512 (the
    depth 512·s + d is the d-th of block s; sums in a commutative monoid, so nothing is asked of the terms). -/
theorem sum_depth_blocks {M : Type*} [AddCommMonoid M] (f : Fin 2048 → M) :
    ∑ s ∈ Finset.range 4, ∑ d : Fin 512, f (depIx s d) = ∑ d' : Fin 2048, f d' := by
  rw [Finset.sum_range, ← Equiv.sum_comp (finProdFinEquiv : Fin 4 × Fin 512 ≃ Fin 2048) f, Fintype.sum_prod_type]
  refine Finset.sum_congr rfl fun s _ => Finset.sum_congr rfl fun d _ => congrArg f (Fin.ext ?_)
  show (512 * s.val + d.val) % 2048 = d.val + 512 * s.val
  have := s.isLt; have := d.isLt; omega

/-- So the four depth blocks' terms add up to the product's entry. -/
theorem sum_blockTerm (A : S512x2048.Idx → EReal) (B : S2048x1024.Idx → EReal) (q : Nat) (r : Fin 128) (n : Fin 1024) :
    ∑ s ∈ Finset.range 4, blockTerm A B q s r n = prodAt A B (rowIx q r) n := by
  unfold blockTerm prodAt
  exact sum_depth_blocks (fun d' => A (ix2 (rowIx q r) d') * B (ix2 d' n))

/-! ## The blocks the windows are on -/

/-- The block each window is on at the point t = 4·i + k: the left operand's block (i, k), the right operand's block
    (k, 0), the result's block (i, 0). -/
theorem idx_facts0 : ∀ t : Fin cfg0.N,
    (win0_0.index t (0 : Fin 2) = t.val / 4 ∧ win0_0.index t (1 : Fin 2) = t.val % 4)
    ∧ (win0_1.index t (0 : Fin 2) = t.val % 4 ∧ win0_1.index t (1 : Fin 2) = 0)
    ∧ (win0_2.index t (0 : Fin 2) = t.val / 4 ∧ win0_2.index t (1 : Fin 2) = 0) :=
  (by decide +kernel : ∀ t : Fin grid0.N, _)

section Blocks
variable (V : (c : Dev nD) → (b : Ref sig .tc) → Buf (Elt Ideal) ((c : Thread nD τ).loc b)) (c : Dev nD)

/-- The left operand's block at the point t, at (r, d): the array's entry (128·(t/4) + r, 512·(t%4) + d). -/
theorem iblk0_left (t : Fin cfg0.N) (r : Fin 128) (d : Fin 512) :
    (iblk0 (F := Ideal) V c 0 t : Vec Ideal S128x512 .f32) (ix2 r d)
      = V c main_arg0 (ix2 (rowIx (t.val / 4) r) (depIx (t.val % 4) d)) := by
  have hN : t.val < 16 := lt_of_lt_of_eq t.isLt (show cfg0.N = 16 from N_0)
  have hi := (idx_facts0 t).1
  unfold iblk0
  rw [View.read_apply]
  show V c main_arg0 _ = V c main_arg0 _
  congr 1
  funext a
  apply Fin.ext
  match a with
  | ⟨0, _⟩ => show win0_0.index t (0 : Fin 2) * 128 + 1 * r.val = (128 * (t.val / 4) + r.val) % 512; rw [hi.1]; omega
  | ⟨1, _⟩ => show win0_0.index t (1 : Fin 2) * 512 + 1 * d.val = (512 * (t.val % 4) + d.val) % 2048; rw [hi.2]; omega

/-- The right operand's block at the point t, at (d, n): the array's entry (512·(t%4) + d, n). -/
theorem iblk0_right (t : Fin cfg0.N) (d : Fin 512) (n : Fin 1024) :
    (iblk0 (F := Ideal) V c 1 t : Vec Ideal S512x1024 .f32) (ix2 d n)
      = V c main_v2 (ix2 (depIx (t.val % 4) d) n) := by
  have hN : t.val < 16 := lt_of_lt_of_eq t.isLt (show cfg0.N = 16 from N_0)
  have hi := (idx_facts0 t).2.1
  unfold iblk0
  rw [View.read_apply]
  show V c main_v2 _ = V c main_v2 _
  congr 1
  funext a
  apply Fin.ext
  match a with
  | ⟨0, _⟩ => show win0_1.index t (0 : Fin 2) * 512 + 1 * d.val = (512 * (t.val % 4) + d.val) % 2048; rw [hi.1]; omega
  | ⟨1, _⟩ => show win0_1.index t (1 : Fin 2) * 1024 + 1 * n.val = n.val; rw [hi.2]; omega

end Blocks

/-! ## The accumulator along a run of four points -/

section Fold
variable (V : (c : Dev nD) → (b : Ref sig .tc) → Buf (Elt Ideal) ((c : Thread nD τ).loc b)) (c : Dev nD)

/-- At a first depth block the accumulator ends at the step on the zero block. -/
theorem acc_first (t : Fin cfg0.N) (h0 : t.val % 4 = 0) :
    (outsAt0 (F := Ideal) V c t.val t.isLt).2 = k0_pay2 (iblk0 V c 0 t) (iblk0 V c 1 t) (k0_pay1 (F := Ideal)) := by
  have h1 : ¬t.val % 4 = 3 := by omega
  rw [outsAt0_A V c t h0 h1]
  dsimp only
  generalize iblk0 V c 0 t = x0
  generalize iblk0 V c 1 t = x1
  exact sout0_A_eq (F := Ideal) c (grid0.coords t) (ms0_0 t) (hs0_0 t) (ms0_1 t) (hs0_1 t) (ms0_2 t) (hs0_2 t) scM0 (Memref.isWhole_whole _) _ _ x0 x1

/-- At a later depth block it ends at the step on what the point before left. -/
theorem acc_step (t : Fin cfg0.N) (h0 : ¬t.val % 4 = 0) :
    (outsAt0 (F := Ideal) V c t.val t.isLt).2
      = k0_pay2 (iblk0 V c 0 t) (iblk0 V c 1 t) (outsAt0 V c (t.val - 1) (Nat.lt_of_le_of_lt (Nat.sub_le _ _) t.isLt)).2 := by
  by_cases h1 : t.val % 4 = 3
  · rw [outsAt0_C V c t h0 h1]
    dsimp only
    generalize (outsAt0 V c (t.val - 1) (Nat.lt_of_le_of_lt (Nat.sub_le _ _) t.isLt)).2 = xs
    generalize iblk0 V c 0 t = x0
    generalize iblk0 V c 1 t = x1
    exact sout0_C_eq (F := Ideal) c (grid0.coords t) (ms0_0 t) (hs0_0 t) (ms0_1 t) (hs0_1 t) (ms0_2 t) (hs0_2 t) scM0 (Memref.isWhole_whole _) _ _ x0 x1 xs
  · rw [outsAt0_B V c t h0 h1]
    dsimp only
    generalize (outsAt0 V c (t.val - 1) (Nat.lt_of_le_of_lt (Nat.sub_le _ _) t.isLt)).2 = xs
    generalize iblk0 V c 0 t = x0
    generalize iblk0 V c 1 t = x1
    exact sout0_B_eq (F := Ideal) c (grid0.coords t) (ms0_0 t) (hs0_0 t) (ms0_1 t) (hs0_1 t) (ms0_2 t) (hs0_2 t) scM0 (Memref.isWhole_whole _) _ _ x0 x1 xs

/-- At a last depth block the output block is stored with what the accumulator ends at. -/
theorem out_last (t : Fin cfg0.N) (h1 : t.val % 4 = 3) :
    (outsAt0 (F := Ideal) V c t.val t.isLt).1 = (outsAt0 (F := Ideal) V c t.val t.isLt).2 := by
  have h0 : ¬t.val % 4 = 0 := by omega
  rw [outsAt0_C V c t h0 h1]
  dsimp only
  generalize (outsAt0 V c (t.val - 1) (Nat.lt_of_le_of_lt (Nat.sub_le _ _) t.isLt)).2 = xs
  generalize iblk0 V c 0 t = x0
  generalize iblk0 V c 1 t = x1
  exact (out0_C_eq (F := Ideal) c (grid0.coords t) (ms0_0 t) (hs0_0 t) (ms0_1 t) (hs0_1 t) (ms0_2 t) (hs0_2 t) scM0 (Memref.isWhole_whole _) _ _ x0 x1 xs).trans
    (sout0_C_eq (F := Ideal) c (grid0.coords t) (ms0_0 t) (hs0_0 t) (ms0_1 t) (hs0_1 t) (ms0_2 t) (hs0_2 t) scM0 (Memref.isWhole_whole _) (fun h => h0 ((hcond0_0 t).mp h)) ((hcond0_1 t).mpr h1) x0 x1 xs).symm

/-- The accumulator after the point n, -/
abbrev accOf (n : Nat) (h : n < cfg0.N) : S128x1024.Idx → EReal := (outsAt0 (F := Ideal) V c n h).2
/-- what a first depth block at the point n leaves in it, -/
abbrev resetOf (n : Nat) (h : n < cfg0.N) : S128x1024.Idx → EReal :=
  k0_pay2 (F := Ideal) (iblk0 (F := Ideal) V c 0 ⟨n, h⟩) (iblk0 (F := Ideal) V c 1 ⟨n, h⟩) (k0_pay1 (F := Ideal))
/-- and what a later depth block at the point n makes of what the point before left. -/
abbrev stepOf (n : Nat) (h : n < cfg0.N) (acc : S128x1024.Idx → EReal) : S128x1024.Idx → EReal :=
  k0_pay2 (F := Ideal) (iblk0 (F := Ideal) V c 0 ⟨n, h⟩) (iblk0 (F := Ideal) V c 1 ⟨n, h⟩) acc

/-- The accumulator after the point t is the fold of the steps over the run of points from 4·(t/4) to t. -/
theorem acc_eq_fold (t : Fin cfg0.N) (h' : 4 * (t.val / 4) + t.val % 4 < cfg0.N) :
    accOf V c t.val t.isLt = Pipeline.accAt (resetOf V c) (stepOf V c) (4 * (t.val / 4)) (t.val % 4) h' :=
  Pipeline.eq_accAt_of_mod (accOf V c) 4 (resetOf V c) (stepOf V c)
    (fun n h hm => acc_first V c ⟨n, h⟩ hm)
    (fun n h hm => acc_step V c ⟨n + 1, h⟩ hm)
    (by decide) t.val t.isLt h'

/-- What the point k adds at an entry of its output block: the term of the depth block k % 4 at row block k / 4. -/
def addend (A : S512x2048.Idx → EReal) (B : S2048x1024.Idx → EReal) (k : Nat) (i : S128x1024.Idx) : EReal :=
  blockTerm A B (k / 4) (k % 4) ⟨(i 0).val, (i 0).isLt⟩ ⟨(i 1).val, (i 1).isLt⟩

/-- A step adds the point's term to what the accumulator held, entry by entry. -/
theorem step_apply (n : Nat) (h : n < cfg0.N) (acc : S128x1024.Idx → EReal) (i : S128x1024.Idx) :
    stepOf V c n h acc i = acc i + addend (V c main_arg0) (V c main_v2) n i := by
  obtain ⟨r, m, rfl⟩ : ∃ (r : Fin 128) (m : Fin 1024), i = ix2 r m := ⟨i 0, i 1, eq_ix2 i⟩
  unfold addend blockTerm
  refine (pay2_apply _ _ acc r m).trans (congrArg (fun z => acc (ix2 r m) + z) (Finset.sum_congr rfl fun d _ => ?_))
  exact congrArg₂ (· * ·) (iblk0_left V c ⟨n, h⟩ r d) (iblk0_right V c ⟨n, h⟩ d m)

/-- A first depth block leaves zero plus the point's term. -/
theorem reset_apply (n : Nat) (h : n < cfg0.N) (i : S128x1024.Idx) :
    resetOf V c n h i = 0 + addend (V c main_arg0) (V c main_v2) n i := by
  refine (step_apply V c n h (k0_pay1 (F := Ideal)) i).trans ?_
  obtain ⟨r, m, rfl⟩ : ∃ (r : Fin 128) (m : Fin 1024), i = ix2 r m := ⟨i 0, i 1, eq_ix2 i⟩
  exact congrArg (fun z => z + addend (V c main_arg0) (V c main_v2) n (ix2 r m)) (pay1_apply r m)

/-- The output block stored at the last depth block of row block t / 4 holds, at (r, n), the product's entry at the
    row 128·(t/4) + r and the column n. -/
theorem out_apply (t : Fin cfg0.N) (h3 : t.val % 4 = 3) (r : Fin 128) (m : Fin 1024) :
    (outsAt0 (F := Ideal) V c t.val t.isLt).1 (ix2 r m)
      = prodAt (V c main_arg0) (V c main_v2) (rowIx (t.val / 4) r) m := by
  have hN : cfg0.N = 16 := N_0
  have ht := t.isLt
  have h' : 4 * (t.val / 4) + t.val % 4 < cfg0.N := by omega
  rw [out_last V c t h3]
  show accOf V c t.val t.isLt (ix2 r m) = _
  rw [acc_eq_fold V c t h']
  have key := Pipeline.accAt_add_apply (resetOf V c) (stepOf V c) (fun _ => (0 : EReal)) (addend (V c main_arg0) (V c main_v2))
    (4 * (t.val / 4)) 3 (fun h i => reset_apply V c _ h i) (fun n h acc i _ _ => step_apply V c n h acc i)
    (t.val % 4) (by omega) h' (ix2 r m)
  rw [key, zero_add, show t.val % 4 + 1 = 4 by omega]
  rw [← sum_blockTerm (V c main_arg0) (V c main_v2) (t.val / 4) r m]
  refine Finset.sum_congr rfl fun s hs => ?_
  have hs' : s < 4 := Finset.mem_range.mp hs
  show blockTerm _ _ ((4 * (t.val / 4) + s) / 4) ((4 * (t.val / 4) + s) % 4) r m = blockTerm _ _ (t.val / 4) s r m
  rw [show (4 * (t.val / 4) + s) / 4 = t.val / 4 by omega, show (4 * (t.val / 4) + s) % 4 = s by omega]

end Fold

end Cert.KernelIdeal.Val.Region0

end
-- ==== Proof.Val.Region0.lean ====
/- What the matrix-product region leaves in its result array, at the extended reals: the product of the two arrays it
   is given, entry by entry. Each point that ends a row block's run of depth blocks writes its output block back, and that
   block holds the product's entries of the block's rows; the four such blocks cover the array's 512 rows. -/
import proofs.«171491_j58179626991726_2_alg».proof.Proof.Val.Region0Fold
import proofs.«171491_j58179626991726_2_alg».proof.Proof.Fr.Data0
import proofs.«171491_j58179626991726_2_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

namespace Region0

section Final
variable (V : (c : Dev nD) → (b : Ref sig .tc) → Buf (Elt Ideal) ((c : Thread nD τ).loc b)) (c : Dev nD)

/-- What a point that writes its output block back writes: its block of the product. -/
theorem flushed_eq (t : Fin cfg0.N) (hf : (cfg0.win 2).flush t = true) :
    (dat0 (F := Ideal) V c).flushed 2 t
      = ((cfg0.win 2).blk t).view.read (Elt Ideal) (prodArr (V c main_arg0) (V c main_v2)) := by
  have h3 : t.val % 4 = 3 := (flush0_2 t).mp hf
  have hN : t.val < 16 := lt_of_lt_of_eq t.isLt (show cfg0.N = 16 from N_0)
  have hi := (idx_facts0 t).2.2
  show (cfg0.win 2).cut (grid0.coords t) ((dat0 V c).after 2 t) = _
  rw [after0_2]
  funext j
  obtain ⟨r, m, rfl⟩ : ∃ (r : Fin 128) (m : Fin 1024), j = ix2 r m := ⟨j 0, j 1, eq_ix2 j⟩
  rw [View.read_apply]
  show (outsAt0 (F := Ideal) V c t.val t.isLt).1 (ix2 r m) = prodArr (V c main_arg0) (V c main_v2) (((cfg0.win 2).blk t).view.emb (ix2 r m))
  rw [out_apply V c t h3 r m]
  unfold prodArr
  refine congrArg₂ (prodAt (V c main_arg0) (V c main_v2)) (Fin.ext ?_) (Fin.ext ?_)
  · show (128 * (t.val / 4) + r.val) % 512 = win0_2.index t (0 : Fin 2) * 128 + 1 * r.val
    rw [hi.1]; omega
  · show m.val = win0_2.index t (1 : Fin 2) * 1024 + 1 * m.val
    rw [hi.2]; omega

/-- An entry of the result is in the point t's block iff each coordinate is in the block's range on its axis. -/
theorem mem_blk_out (t : Fin cfg0.N) (i : S512x1024.Idx) :
    i ∈ ((cfg0.win 2).blk t).view.set ↔ ∀ a : Fin 2, win0_2.index t a * S128x1024.size a ≤ (i a).val ∧ (i a).val < win0_2.index t a * S128x1024.size a + S128x1024.size a := by
  show i ∈ ((View.whole main_v3).slice (win0_2.rect t)).set ↔ _
  rw [View.set_slice_whole, Rect.mem_set_unit]
  exact Iff.rfl

/-- Every entry of the result is in the block some point writes back: row b is in the block of the point 4·(b/128) + 3. -/
theorem covered (i : S512x1024.Idx) : ∃ t : Fin cfg0.N, (cfg0.win 2).flush t = true ∧ i ∈ ((cfg0.win 2).blk t).view.set := by
  have hi0 : (i 0).val < 512 := (i 0).isLt
  have hi1 : (i 1).val < 1024 := (i 1).isLt
  have hN : cfg0.N = 16 := N_0
  obtain ⟨t, ht⟩ : ∃ t : Fin cfg0.N, t.val = 4 * ((i 0).val / 128) + 3 := ⟨⟨4 * ((i 0).val / 128) + 3, by omega⟩, rfl⟩
  have hi := (idx_facts0 t).2.2
  refine ⟨t, (flush0_2 t).mpr (by omega), ?_⟩
  rw [mem_blk_out]
  intro a
  match a with
  | ⟨0, _⟩ => show win0_2.index t (0 : Fin 2) * 128 ≤ (i 0).val ∧ (i 0).val < win0_2.index t (0 : Fin 2) * 128 + 128; rw [hi.1]; omega
  | ⟨1, _⟩ => show win0_2.index t (1 : Fin 2) * 1024 ≤ (i 1).val ∧ (i 1).val < win0_2.index t (1 : Fin 2) * 1024 + 1024; rw [hi.2]; omega

end Final

end Region0

/-- After the last grid point the result array holds the matrix product of the region's two input arrays. -/
theorem region0_value (V : (c : Dev nD) → (b : Ref sig .tc) → Buf (Elt Ideal) ((c : Thread nD τ).loc b)) (c : Dev nD) (i : S512x1024.Idx) :
    (dat0 (F := Ideal) V c).arrAt 2 cfg0.N i = prodArr (V c main_arg0) (V c main_v2) i :=
  congrFun ((dat0 (F := Ideal) V c).arrAt_eq_of_cover 2 (prodArr (V c main_arg0) (V c main_v2)) (Region0.flushed_eq V c) Region0.covered) i

end Cert.KernelIdeal.Val

end
-- ==== Proof.Val.Region1Defs.lean ====
/- What one grid point of the pairwise kernel adds to its output block, as a function of the row block, the partner
   block and what the output block held: the block it held plus, for each of the partner block's eight rows in turn,
   exp(0 − the sum over the kernel coordinate of |row block − that row|), the eight terms added up from zero in row
   order. For any float values. -/
import proofs.«171491_j58179626991726_2_alg».proof.Proof.Gen.KernelIdeal.Skeleton
import Idealize.ShloMosaic.Lib.Pipeline.Value

set_option maxRecDepth 16384

noncomputable section

namespace Cert.KernelIdeal.Val

open Idealize.ShloMosaic Idealize.ShloMosaic.TcCoe
open Idealize.SL Idealize.SL.Sem
open Cert.KernelIdeal Cert.KernelIdeal.Gen

variable {F : FTy → Type} [FloatOps F]

/-- One partner row's term: the row broadcast over the 128 rows of the row block, subtracted, the absolute value, the
    sum over the kernel coordinate, subtracted from zero, the exponential. -/
def rowTerm (x0 : FVec F S128x16x64 .f32) (v : Vec F S1x16x64 .f32) : FVec F S128x64 .f32 :=
  exp (subf (broadcast S128x64 (Scalar.ofBits .f32 0x00000000#32))
    (multiReduction .add [1] S128x64
      (absf (subf x0 (broadcastTo S128x16x64
        (shapeCast S1x16x64 (shapeCast S16x64 v shapeCasts_S1x16x64_S16x64) shapeCasts_S16x64_S1x16x64)
        broadcasts_S1x16x64_S128x16x64)))
      0x00000000#32 reduces_S128x16x64_S128x64 (.inl rfl) rfl))

/-- Row q of the partner block, as the body loads it: a [1, 16, 64] vector. -/
def partnerRow (x1 : Vec F S8x16x64 .f32) (q : Nat) (inb : ∀ a, (![q, 0, 0] : Fin 3 → Nat) a + S1x16x64.size a ≤ S8x16x64.size a) :
    Vec F S1x16x64 .f32 :=
  View.ld x1 (Rect.unit (s := S8x16x64) ![q, 0, 0] S1x16x64.size inb)

/-- What a grid point leaves in the output block that held xo: xo plus the eight rows' terms added up from zero. -/
def stepPay (x0 : Vec F S128x16x64 .f32) (x1 : Vec F S8x16x64 .f32) (xo : Vec F S128x64 .f32) : FVec F S128x64 .f32 :=
  addf (shapeCast S128x64 xo shapeCasts_S128x64_S128x64)
    (addf (addf (addf (addf (addf (addf (addf (addf (broadcast S128x64 (Scalar.ofBits .f32 0x00000000#32))
      (rowTerm (k1_pay3 x0) (partnerRow x1 0 inb_S8x16x64_S1x16x64_0_0_0)))
      (rowTerm (k1_pay3 x0) (partnerRow x1 1 inb_S8x16x64_S1x16x64_1_0_0)))
      (rowTerm (k1_pay3 x0) (partnerRow x1 2 inb_S8x16x64_S1x16x64_2_0_0)))
      (rowTerm (k1_pay3 x0) (partnerRow x1 3 inb_S8x16x64_S1x16x64_3_0_0)))
      (rowTerm (k1_pay3 x0) (partnerRow x1 4 inb_S8x16x64_S1x16x64_4_0_0)))
      (rowTerm (k1_pay3 x0) (partnerRow x1 5 inb_S8x16x64_S1x16x64_5_0_0)))
      (rowTerm (k1_pay3 x0) (partnerRow x1 6 inb_S8x16x64_S1x16x64_6_0_0)))
      (rowTerm (k1_pay3 x0) (partnerRow x1 7 inb_S8x16x64_S1x16x64_7_0_0)))

/-- The stored payload of the body, over the loaded blocks and rows, is that. -/
theorem pay_eq_stepPay (x0 : Vec F S128x16x64 .f32) (x1 : Vec F S8x16x64 .f32) (xo : Vec F S128x64 .f32) :
    k1_pay1 (k1_pay3 x0)
      (k1_pay6 (k1_pay3 x0)
        (k1_pay4 x0 (partnerRow x1 0 inb_S8x16x64_S1x16x64_0_0_0) (partnerRow x1 1 inb_S8x16x64_S1x16x64_1_0_0))
        (k1_pay5 x0 (partnerRow x1 2 inb_S8x16x64_S1x16x64_2_0_0))
        (partnerRow x1 3 inb_S8x16x64_S1x16x64_3_0_0) (partnerRow x1 4 inb_S8x16x64_S1x16x64_4_0_0)
        (partnerRow x1 5 inb_S8x16x64_S1x16x64_5_0_0))
      (partnerRow x1 6 inb_S8x16x64_S1x16x64_6_0_0) (partnerRow x1 7 inb_S8x16x64_S1x16x64_7_0_0) xo
    = stepPay x0 x1 xo := rfl

end Cert.KernelIdeal.Val

end
-- ==== Proof.Val.Region1Pieces.lean ====
/- The pairwise kernel's body run, read back: at a later partner block the output block is left holding what it held
   plus the block's eight row terms; at the first partner block the zero block plus them. For any float values. -/
import proofs.«171491_j58179626991726_2_alg».proof.Proof.Fr.Data1
import proofs.«171491_j58179626991726_2_alg».proof.Proof.Val.Region1Defs
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Fr

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later partner block: the one store's payload over the loads, the output block read whole. -/
theorem out1_B_eq (c : Dev nD) (i : grid1.Coords) (arg2 : Memref sig .tc .vmem S128x16x64 .f32) (harg2 : arg2.IsWhole) (arg3 : Memref sig .tc .vmem S8x16x64 .f32) (harg3 : arg3.IsWhole) (arg4 : Memref sig .tc .vmem S128x64 .f32) (harg4 : arg4.IsWhole) (hc0 : ¬cond1_0 i) (x0 : Vec F S128x16x64 .f32) (x1 : Vec F S8x16x64 .f32) (xo : Vec F S128x64 .f32) :
    out1_B c i arg2 harg2 arg3 harg3 arg4 harg4 hc0 x0 x1 xo = stepPay x0 x1 xo := by
  unfold out1_B
  rw [View.read_writes_eq_canon _ _ _ (cover1_B c i arg2 harg2 arg3 harg3 arg4 harg4 hc0 x0 x1 xo)]
  unfold kernelRun1_B
  dsimp only
  sl_unfold_words
  rw [View.canon_unit_zero hz2]
  simp only [View.readAt_eq_ld, harg2.read_unread, harg3.read_unread, harg4.read_unread, View.ld_unit_zero (S := S128x64) hz2, View.ld_unit_zero (S := S128x16x64) hz3]
  exact pay_eq_stepPay x0 x1 xo

/-- The first partner block: the zero block is stored, read back, and added to. -/
theorem out1_A_eq (c : Dev nD) (i : grid1.Coords) (arg2 : Memref sig .tc .vmem S128x16x64 .f32) (harg2 : arg2.IsWhole) (arg3 : Memref sig .tc .vmem S8x16x64 .f32) (harg3 : arg3.IsWhole) (arg4 : Memref sig .tc .vmem S128x64 .f32) (harg4 : arg4.IsWhole) (hc0 : cond1_0 i) (x0 : Vec F S128x16x64 .f32) (x1 : Vec F S8x16x64 .f32) :
    out1_A c i arg2 harg2 arg3 harg3 arg4 harg4 hc0 x0 x1 = stepPay x0 x1 k1_pay2 := by
  unfold out1_A
  rw [View.read_writes_eq_canon _ _ _ (cover1_A c i arg2 harg2 arg3 harg3 arg4 harg4 hc0 x0 x1)]
  unfold kernelRun1_A
  dsimp only
  sl_unfold_words
  rw [View.canon_cons_unit_zero (S := S128x64) hz2, View.readCov_unit_zero (S := S128x64) _ hz2]
  simp only [View.readAt_eq_ld, harg2.read_unread, harg3.read_unread, View.ld_unit_zero (S := S128x16x64) hz3]
  exact pay_eq_stepPay x0 x1 k1_pay2

end Cert.KernelIdeal.Val

end
-- ==== Proof.Val.Region1Row.lean ====
/- One grid point's addition read at an entry, at the extended reals: the entry (r, o) of what the point leaves is the
   entry it held plus the sum over the partner block's eight rows q of exp(0 − Σ over k of |x0(r, k, o) − x1(q, k, o)|). -/
import proofs.«171491_j58179626991726_2_alg».proof.Proof.Val.Region1Defs
import proofs.«171491_j58179626991726_2_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen

/-- The index the lane sum inserts at the kernel coordinate: (r, o) with k put on axis 1 is (r, k, o). -/
theorem lift_rko (r : Fin 128) (o : Fin 64) (k : Fin 16) :
    reduces_S128x16x64_S128x64.lift (ix2 r o) k = ix3 r k o := by
  funext a
  match a with
  | ⟨0, _⟩ => rfl
  | ⟨1, _⟩ => rfl
  | ⟨2, _⟩ => rfl

/-- One row broadcast over the 128 rows reads, at (r, k, o), the row at (0, k, o). -/
theorem bcast_row_apply {α : Type} (w : S1x16x64.Idx → α) (r : Fin 128) (k : Fin 16) (o : Fin 64) :
    broadcastTo S128x16x64 w broadcasts_S1x16x64_S128x16x64 (ix3 r k o) = w (ix3 (0 : Fin 1) k o) :=
  broadcastTo_apply w _ (ix3 r k o) (ix3 (0 : Fin 1) k o) fun a => by
    match a with
    | ⟨0, _⟩ => rfl
    | ⟨1, _⟩ => rfl
    | ⟨2, _⟩ => rfl

/-- The lane sum over the kernel coordinate, read at (r, o). -/
theorem laneSum_apply (src : FVec Ideal S128x16x64 .f32) (hφ : FKind.Formats .f32)
    (hacc : (0x00000000#32 : BitVec 32) = FKind.add.neutral .f32 hφ) (r : Fin 128) (o : Fin 64) :
    multiReduction .add [1] S128x64 src 0x00000000#32 reduces_S128x16x64_S128x64 hφ hacc (ix2 r o)
      = ∑ k : Fin 16, src (ix3 r k o) :=
  (Ideal.multiReduction_add_single src 0x00000000#32 reduces_S128x16x64_S128x64 hφ hacc (ix2 r o)).trans
    (Finset.sum_congr rfl fun k _ => congrArg src (lift_rko r o k))

/-- One partner row's term at (r, o): exp(0 − Σ over k of |x0(r, k, o) − v(0, k, o)|). -/
theorem rowTerm_apply (x0 : FVec Ideal S128x16x64 .f32) (v : Vec Ideal S1x16x64 .f32) (r : Fin 128) (o : Fin 64) :
    rowTerm (F := Ideal) x0 v (ix2 r o) = Ideal.exp (0 - ∑ k : Fin 16, eabs (x0 (ix3 r k o) - v (ix3 (0 : Fin 1) k o))) := by
  unfold rowTerm
  show Ideal.exp (Ideal.ofBits .f32 0x00000000#32 - multiReduction (F := Ideal) (φ := .f32) .add [1] S128x64 _ 0x00000000#32 reduces_S128x16x64_S128x64 _ _ (ix2 r o)) = _
  rw [Ideal.ofBits_zero_f32]
  refine congrArg (fun z => Ideal.exp (0 - z)) ?_
  refine (laneSum_apply _ _ _ r o).trans ?_
  refine Finset.sum_congr rfl fun k _ => ?_
  show eabs (x0 (ix3 r k o) - broadcastTo S128x16x64 _ broadcasts_S1x16x64_S128x16x64 (ix3 r k o)) = _
  rw [bcast_row_apply, shapeCast_shapeCast]

/-- Row q of the partner block at (0, k, o) is the block at (q, k, o). -/
theorem partnerRow_apply (x1 : Vec Ideal S8x16x64 .f32) (q : Nat) (hq : q < 8)
    (inb : ∀ a, (![q, 0, 0] : Fin 3 → Nat) a + S1x16x64.size a ≤ S8x16x64.size a) (k : Fin 16) (o : Fin 64) :
    partnerRow (F := Ideal) x1 q inb (ix3 (0 : Fin 1) k o) = x1 (ix3 (⟨q, hq⟩ : Fin 8) k o) := by
  unfold partnerRow
  show x1 _ = x1 _
  refine congrArg x1 (funext fun a => Fin.ext ?_)
  match a with
  | ⟨0, _⟩ => show q + 1 * 0 = q; omega
  | ⟨1, _⟩ => show 0 + 1 * k.val = k.val; omega
  | ⟨2, _⟩ => show 0 + 1 * o.val = o.val; omega

/-- The term of row q of the partner block, over the row block as loaded. -/
theorem term_apply (x0 : Vec Ideal S128x16x64 .f32) (x1 : Vec Ideal S8x16x64 .f32) (q : Nat) (hq : q < 8)
    (inb : ∀ a, (![q, 0, 0] : Fin 3 → Nat) a + S1x16x64.size a ≤ S8x16x64.size a) (r : Fin 128) (o : Fin 64) :
    rowTerm (F := Ideal) (k1_pay3 x0) (partnerRow x1 q inb) (ix2 r o)
      = Ideal.exp (0 - ∑ k : Fin 16, eabs (x0 (ix3 r k o) - x1 (ix3 (⟨q, hq⟩ : Fin 8) k o))) := by
  rw [rowTerm_apply]
  refine congrArg (fun z => Ideal.exp (0 - z)) (Finset.sum_congr rfl fun k _ => ?_)
  rw [partnerRow_apply x1 q hq inb k o]
  unfold k1_pay3
  rw [shapeCast_self]

/-- What a grid point leaves at (r, o): what the block held there plus the eight rows' terms. -/
theorem stepPay_apply (x0 : Vec Ideal S128x16x64 .f32) (x1 : Vec Ideal S8x16x64 .f32) (xo : Vec Ideal S128x64 .f32)
    (r : Fin 128) (o : Fin 64) :
    stepPay (F := Ideal) x0 x1 xo (ix2 r o)
      = xo (ix2 r o) + ∑ q : Fin 8, Ideal.exp (0 - ∑ k : Fin 16, eabs (x0 (ix3 r k o) - x1 (ix3 q k o))) := by
  unfold stepPay
  simp only [addf_apply, broadcast_apply]
  rw [shapeCast_self, Ideal.ofBits_def, Ideal.ofBits_zero_f32, zero_add,
    term_apply x0 x1 0 (by decide) _ r o, term_apply x0 x1 1 (by decide) _ r o, term_apply x0 x1 2 (by decide) _ r o,
    term_apply x0 x1 3 (by decide) _ r o, term_apply x0 x1 4 (by decide) _ r o, term_apply x0 x1 5 (by decide) _ r o,
    term_apply x0 x1 6 (by decide) _ r o, term_apply x0 x1 7 (by decide) _ r o, Fin.sum_univ_eight]
  rfl

/-- The zero block the first partner block stores reads 0 everywhere. -/
theorem zeroBlock_apply (i : S128x64.Idx) : k1_pay2 (F := Ideal) i = 0 := Ideal.ofBits_zero_f32

end Cert.KernelIdeal.Val

end
-- ==== Proof.Val.Region1.lean ====
/- What the pairwise region leaves in its result array, at the extended reals: for the (row, kernel coordinate, feature)
   array M it is given, out(b, o) = Σ over rows b2 of exp(0 − Σ over k of |M(b, k, o) − M(b2, k, o)|).

   The grid point t = 64·i + j holds rows 128·i … of M as its row block and rows 8·j … of M as its partner block, and
   adds to the output block's entry (r, o) the eight terms of the partner rows 8·j + q. The output block is reset at
   j = 0 and written back at j = 63, when it holds 0 + Σ over j < 64 of (Σ over q < 8 of the term of row 8·j + q):
   the sum over all 512 rows b2 = 8·j + q, since the extended reals' addition is a commutative monoid. The block written
   back at point 64·i + 63 is rows 128·i … 128·i + 127 of the result, and these blocks cover it. -/
import proofs.«171491_j58179626991726_2_alg».proof.Proof.Fr.Data1
import proofs.«171491_j58179626991726_2_alg».proof.Proof.Val.Spec
import proofs.«171491_j58179626991726_2_alg».proof.Proof.Val.Region1Pieces
import proofs.«171491_j58179626991726_2_alg».proof.Proof.Val.Region1Row
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

/-! ## The windows' block indices over the grid -/

/-- At point t = 64·i + j: the row block and the output block are block i, the partner block is block j. -/
theorem idx_facts1 : ∀ t : Fin cfg1.N,
    win1_0.index t (0 : Fin 3) = t.val / 64 ∧ win1_0.index t (1 : Fin 3) = 0 ∧ win1_0.index t (2 : Fin 3) = 0
    ∧ win1_1.index t (0 : Fin 3) = t.val % 64 ∧ win1_1.index t (1 : Fin 3) = 0 ∧ win1_1.index t (2 : Fin 3) = 0
    ∧ win1_2.index t (0 : Fin 2) = t.val / 64 ∧ win1_2.index t (1 : Fin 2) = 0 :=
  (by decide +kernel : ∀ t : Fin grid1.N, _)

section
variable (V : (c : Dev nD) → (b : Ref sig .tc) → Buf (Elt Ideal) ((c : Thread nD τ).loc b)) (c : Dev nD)

/-- The row block at point t, at (r, k, o): row 128·(t / 64) + r of the array. -/
theorem rowBlock_apply (t : Fin cfg1.N) (r : Fin 128) (k : Fin 16) (o : Fin 64) (h : 128 * (t.val / 64) + r.val < 512) :
    iblk1 (F := Ideal) V c 0 t (ix3 r k o) = V c main_v4 (ix3 (⟨128 * (t.val / 64) + r.val, h⟩ : Fin 512) k o) := by
  obtain ⟨e0, e1, e2, -⟩ := idx_facts1 t
  unfold iblk1
  rw [View.read_apply]
  show V c main_v4 _ = V c main_v4 _
  refine congrArg (V c main_v4) (funext fun a => Fin.ext ?_)
  match a with
  | ⟨0, _⟩ => show win1_0.index t (0 : Fin 3) * 128 + 1 * r.val = 128 * (t.val / 64) + r.val; rw [e0]; omega
  | ⟨1, _⟩ => show win1_0.index t (1 : Fin 3) * 16 + 1 * k.val = k.val; rw [e1]; omega
  | ⟨2, _⟩ => show win1_0.index t (2 : Fin 3) * 64 + 1 * o.val = o.val; rw [e2]; omega

/-- The partner block at point t, at (q, k, o): row 8·(t % 64) + q of the same array. -/
theorem partnerBlock_apply (t : Fin cfg1.N) (q : Fin 8) (k : Fin 16) (o : Fin 64) (h : 8 * (t.val % 64) + q.val < 512) :
    iblk1 (F := Ideal) V c 1 t (ix3 q k o) = V c main_v4 (ix3 (⟨8 * (t.val % 64) + q.val, h⟩ : Fin 512) k o) := by
  obtain ⟨-, -, -, e0, e1, e2, -⟩ := idx_facts1 t
  unfold iblk1
  rw [View.read_apply]
  show V c main_v4 _ = V c main_v4 _
  refine congrArg (V c main_v4) (funext fun a => Fin.ext ?_)
  match a with
  | ⟨0, _⟩ => show win1_1.index t (0 : Fin 3) * 8 + 1 * q.val = 8 * (t.val % 64) + q.val; rw [e0]; omega
  | ⟨1, _⟩ => show win1_1.index t (1 : Fin 3) * 16 + 1 * k.val = k.val; rw [e1]; omega
  | ⟨2, _⟩ => show win1_1.index t (2 : Fin 3) * 64 + 1 * o.val = o.val; rw [e2]; omega

end

/-! ## One point's addend -/

/-- The term of the pair of rows (b, b2) at feature o. -/
def pairTerm (A : S512x16x64.Idx → EReal) (b b2 : Fin 512) (o : Fin 64) : EReal := Ideal.exp (0 - distAt A b b2 o)

/-- What point n adds to the output block's entry i: the terms of its eight partner rows against its row block's row.
    (Stated for every natural n, the row numbers reduced modulo 512, which changes nothing on the grid.) -/
def addend (A : S512x16x64.Idx → EReal) (n : Nat) (i : S128x64.Idx) : EReal :=
  ∑ q : Fin 8, pairTerm A ⟨(128 * (n / 64) + (i 0).val) % 512, Nat.mod_lt _ (by decide)⟩
    ⟨(8 * (n % 64) + q.val) % 512, Nat.mod_lt _ (by decide)⟩ ⟨(i 1).val, (i 1).isLt⟩

section
variable (V : (c : Dev nD) → (b : Ref sig .tc) → Buf (Elt Ideal) ((c : Thread nD τ).loc b)) (c : Dev nD)

/-- One grid point's step at an entry: what the output block held plus the point's addend. -/
theorem step_apply (t : Fin cfg1.N) (acc : Vec Ideal S128x64 .f32) (i : S128x64.Idx) :
    stepPay (F := Ideal) (iblk1 V c 0 t) (iblk1 V c 1 t) acc i = acc i + addend (V c main_v4) t.val i := by
  have hN : t.val < 256 := lt_of_lt_of_eq t.isLt (show cfg1.N = 256 from N_1)
  obtain ⟨r, o, rfl⟩ : ∃ (r : Fin 128) (o : Fin 64), i = ix2 r o := ⟨i 0, i 1, eq_ix2 i⟩
  have hr := r.isLt
  refine (stepPay_apply (iblk1 V c 0 t) (iblk1 V c 1 t) acc r o).trans ?_
  refine congrArg (fun z => acc (ix2 r o) + z) ?_
  unfold addend
  refine Finset.sum_congr rfl fun q _ => ?_
  have hq := q.isLt
  have e1 : (⟨(128 * (t.val / 64) + r.val) % 512, Nat.mod_lt _ (by decide)⟩ : Fin 512) = ⟨128 * (t.val / 64) + r.val, by omega⟩ :=
    Fin.ext (Nat.mod_eq_of_lt (by omega))
  have e2 : (⟨(8 * (t.val % 64) + q.val) % 512, Nat.mod_lt _ (by decide)⟩ : Fin 512) = ⟨8 * (t.val % 64) + q.val, by omega⟩ :=
    Fin.ext (Nat.mod_eq_of_lt (by omega))
  show _ = pairTerm (V c main_v4) ⟨(128 * (t.val / 64) + r.val) % 512, _⟩ ⟨(8 * (t.val % 64) + q.val) % 512, _⟩ o
  rw [e1, e2]
  unfold pairTerm distAt
  refine congrArg (fun z => Ideal.exp (0 - z)) (Finset.sum_congr rfl fun k _ => ?_)
  rw [rowBlock_apply V c t r k o (by omega), partnerBlock_apply V c t q k o (by omega)]

/-! ## The fold over a run of 64 points -/

/-- At a point that writes the block back (j = 63) the output block holds zero plus the 64 points' addends. -/
theorem outs_eq_sum (t : Fin cfg1.N) (ht : t.val % 64 = 63) (i : S128x64.Idx) :
    outsAt1 (F := Ideal) V c t.val t.isLt i
      = 0 + ∑ s ∈ Finset.range 64, addend (V c main_v4) (64 * (t.val / 64) + s) i := by
  have h' : 64 * (t.val / 64) + t.val % 64 < cfg1.N := by rw [Nat.div_add_mod]; exact t.isLt
  have key := Pipeline.eq_accAt_of_mod (N := cfg1.N) (fun n h => outsAt1 (F := Ideal) V c n h) 64
    (fun n h => stepPay (F := Ideal) (iblk1 V c 0 ⟨n, h⟩) (iblk1 V c 1 ⟨n, h⟩) (k1_pay2 (F := Ideal)))
    (fun n h acc => stepPay (F := Ideal) (iblk1 V c 0 ⟨n, h⟩) (iblk1 V c 1 ⟨n, h⟩) acc)
    (fun n h h0 => (outsAt1_A V c ⟨n, h⟩ h0).trans
      (out1_A_eq (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩)
        ((hcond1_0 ⟨n, h⟩).mpr h0) (iblk1 V c 0 ⟨n, h⟩) (iblk1 V c 1 ⟨n, h⟩)))
    (fun n h hne => (outsAt1_B V c ⟨n + 1, h⟩ hne).trans
      (out1_B_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩)
        (fun hc => hne ((hcond1_0 ⟨n + 1, h⟩).mp hc)) (iblk1 V c 0 ⟨n + 1, h⟩) (iblk1 V c 1 ⟨n + 1, h⟩) (outsAt1 V c n (Nat.lt_of_succ_lt h))))
    (by decide) t.val t.isLt h'
  refine (congrFun key i).trans ?_
  have fold := Pipeline.accAt_add_apply (N := cfg1.N) (ι := S128x64.Idx) (β := EReal)
    (fun n h => stepPay (F := Ideal) (iblk1 V c 0 ⟨n, h⟩) (iblk1 V c 1 ⟨n, h⟩) (k1_pay2 (F := Ideal)))
    (fun n h acc => stepPay (F := Ideal) (iblk1 V c 0 ⟨n, h⟩) (iblk1 V c 1 ⟨n, h⟩) acc)
    (fun _ => 0) (fun n i => addend (V c main_v4) n i) (64 * (t.val / 64)) 63
    (fun h i => (step_apply V c ⟨64 * (t.val / 64), h⟩ (k1_pay2 (F := Ideal)) i).trans (by rw [zeroBlock_apply]))
    (fun n h acc i _ _ => step_apply V c ⟨n, h⟩ acc i)
    (t.val % 64) (by omega) h' i
  refine fold.trans ?_
  rw [ht]

end

/-! ## The 512 rows, as 64 blocks of 8 -/

/-- A sum over the 512 rows is the sum over the 64 partner blocks of the sums over their 8 rows. -/
theorem sum_rows_blocks (f : Fin 512 → EReal) :
    ∑ b2 : Fin 512, f b2
      = ∑ s ∈ Finset.range 64, ∑ q : Fin 8, f ⟨(8 * s + q.val) % 512, Nat.mod_lt _ (by decide)⟩ := by
  rw [Finset.sum_range]
  rw [← Equiv.sum_comp (finProdFinEquiv : Fin 64 × Fin 8 ≃ Fin 512) f, Fintype.sum_prod_type]
  refine Finset.sum_congr rfl fun s _ => Finset.sum_congr rfl fun q _ => congrArg f (Fin.ext ?_)
  have hs := s.isLt
  have hq := q.isLt
  show q.val + 8 * s.val = (8 * s.val + q.val) % 512
  omega

section
variable (V : (c : Dev nD) → (b : Ref sig .tc) → Buf (Elt Ideal) ((c : Thread nD τ).loc b)) (c : Dev nD)

/-! ## What a point writes back, the cover, the array -/

/-- A point that writes the block back writes the block of the pairwise array. -/
theorem flushed_eq (t : Fin cfg1.N) (hf : (cfg1.win 2).flush t = true) :
    (dat1 (F := Ideal) V c).flushed 2 t = ((cfg1.win 2).blk t).view.read (Elt Ideal) (pairArr (V c main_v4)) := by
  have hN : t.val < 256 := lt_of_lt_of_eq t.isLt (show cfg1.N = 256 from N_1)
  have ht : t.val % 64 = 63 := (flush1_2 t).mp hf
  obtain ⟨-, -, -, -, -, -, e0, e1⟩ := idx_facts1 t
  show (cfg1.win 2).cut (grid1.coords t) ((dat1 (F := Ideal) V c).after 2 t) = _
  rw [after1_2]
  funext j
  have hj0 : (j 0).val < 128 := (j 0).isLt
  have hj1 : (j 1).val < 64 := (j 1).isLt
  rw [View.read_apply]
  show outsAt1 (F := Ideal) V c t.val t.isLt j = pairArr (V c main_v4) (((cfg1.win 2).blk t).view.emb j)
  rw [outs_eq_sum V c t ht j, zero_add]
  unfold pairArr pairAt
  rw [sum_rows_blocks]
  refine Finset.sum_congr rfl fun s hs => ?_
  have hs' : s < 64 := Finset.mem_range.mp hs
  unfold addend
  refine Finset.sum_congr rfl fun q _ => ?_
  have hq := q.isLt
  have a0 : ((((cfg1.win 2).blk t).view.emb j) 0).val = 128 * (t.val / 64) + (j 0).val := by
    show win1_2.index t (0 : Fin 2) * 128 + 1 * (j 0).val = _; rw [e0]; omega
  have a1 : ((((cfg1.win 2).blk t).view.emb j) 1).val = (j 1).val := by
    show win1_2.index t (1 : Fin 2) * 64 + 1 * (j 1).val = _; rw [e1]; omega
  unfold pairTerm
  congr 3
  · exact Fin.ext (by
      show (128 * ((64 * (t.val / 64) + s) / 64) + (j 0).val) % 512 = ((((cfg1.win 2).blk t).view.emb j) 0).val
      rw [a0]; omega)
  · exact Fin.ext (by
      show (8 * ((64 * (t.val / 64) + s) % 64) + q.val) % 512 = (8 * s + q.val) % 512
      omega)
  · exact Fin.ext (by
      show (j 1).val = ((((cfg1.win 2).blk t).view.emb j) 1).val
      rw [a1])

end

/-- An index of the result is in point t's output block iff its row is among the block's 128 rows. -/
theorem mem_blk (t : Fin cfg1.N) (i : S512x64.Idx) :
    i ∈ ((cfg1.win 2).blk t).view.set ↔ ∀ a : Fin 2, win1_2.index t a * S128x64.size a ≤ (i a).val ∧ (i a).val < win1_2.index t a * S128x64.size a + S128x64.size a := by
  show i ∈ ((View.whole main_v5).slice (win1_2.rect t)).set ↔ _
  rw [View.set_slice_whole, Rect.mem_set_unit]
  exact Iff.rfl

/-- Row b of the result is written back at the point 64·(b / 128) + 63. -/
theorem cover (i : S512x64.Idx) : ∃ t : Fin cfg1.N, (cfg1.win 2).flush t = true ∧ i ∈ ((cfg1.win 2).blk t).view.set := by
  have hi0 : (i 0).val < 512 := (i 0).isLt
  have hi1 : (i 1).val < 64 := (i 1).isLt
  have hN : cfg1.N = 256 := N_1
  let t : Fin cfg1.N := ⟨64 * ((i 0).val / 128) + 63, by rw [hN]; omega⟩
  have htv : t.val = 64 * ((i 0).val / 128) + 63 := rfl
  obtain ⟨-, -, -, -, -, -, e0, e1⟩ := idx_facts1 t
  refine ⟨t, (flush1_2 t).mpr (by rw [htv]; omega), ?_⟩
  rw [mem_blk]
  intro a
  match a with
  | ⟨0, _⟩ =>
    show win1_2.index t (0 : Fin 2) * 128 ≤ (i 0).val ∧ (i 0).val < win1_2.index t (0 : Fin 2) * 128 + 128
    rw [e0, htv]; omega
  | ⟨1, _⟩ =>
    show win1_2.index t (1 : Fin 2) * 64 ≤ (i 1).val ∧ (i 1).val < win1_2.index t (1 : Fin 2) * 64 + 64
    rw [e1]; omega

/-- After the last grid point the result array holds the pairwise array of the region's input array. -/
theorem region1_value (V : (c : Dev nD) → (b : Ref sig .tc) → Buf (Elt Ideal) ((c : Thread nD τ).loc b)) (c : Dev nD) (i : S512x64.Idx) :
    (dat1 (F := Ideal) V c).arrAt 2 cfg1.N i = pairArr (V c main_v4) i :=
  congrFun ((dat1 (F := Ideal) V c).arrAt_eq_of_cover 2 (pairArr (V c main_v4)) (fun t hf => flushed_eq V c t hf) cover) i

end Cert.KernelIdeal.Val

end
-- ==== Proof.lean ====
/- A Pallas program of two kernels against its jnp reference, at the extended reals. The first kernel multiplies x
   (512 × 2048) by T (2048 × 1024) with T's columns permuted from (feature, kernel coordinate) order to (kernel coordinate,
   feature) order, accumulating over four depth blocks in a scratch carried from grid point to grid point; the second, for
   the product viewed as M(row, kernel coordinate, feature), accumulates over 64 blocks of 8 partner rows
   out(b, o) = Σ over rows b2 of exp(−Σ over k of |M(b, k, o) − M(b2, k, o)|), reading M through two windows on one array;
   the result is x beside out. The reference computes the same out from x·T viewed as (row, feature, kernel coordinate).
   Both sides are the same sums of the same terms in different groupings, and addition of extended reals is commutative
   and associative, so no finiteness of the inputs is used.

   The frames: each program is run as its host operations and its two kernel regions in order, every unscoped buffer's
   contents named at each boundary; the kernel bodies are run once per way their conditionals go on the grid, the first
   kernel's accumulator carried in the region's invariant, the second kernel's two input windows holding their common
   array at the two halves of the full share. The values: what each region leaves in its result array, the host operations
   read at an index, and the bridge to the reference's stages. -/
import proofs.«171491_j58179626991726_2_alg».proof.Defs
import proofs.«171491_j58179626991726_2_alg».proof.Proof.Gen.Kernel
import proofs.«171491_j58179626991726_2_alg».proof.Proof.Gen.KernelIdeal
import proofs.«171491_j58179626991726_2_alg».proof.Proof.Gen.ReferenceIdeal
import proofs.«171491_j58179626991726_2_alg».proof.Proof.Gen.Pre_finite_inputs
import proofs.«171491_j58179626991726_2_alg».proof.Proof.Val.Claims
import proofs.«171491_j58179626991726_2_alg».proof.Proof.Val.Region0
import proofs.«171491_j58179626991726_2_alg».proof.Proof.Val.Region1

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.KernelIdeal.Val.frame_k, Cert.KernelIdeal.Val.frame_ki, Cert.KernelIdeal.Val.frame_ri, Cert.KernelIdeal.Val.preserves,
  Cert.KernelIdeal.Val.algebraic_of Cert.KernelIdeal.Val.region0_value Cert.KernelIdeal.Val.region1_value⟩

end Cert.Proof

end
